-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x600000 : Shape := ⟨2, ![2, 600000]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x64 .f32) (main_arg1 : IVec S2x600000 32) (main_arg2 : FVec F S64x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x64 : Shape := ⟨2, ![50000, 64]⟩
abbrev S2x600000 : Shape := ⟨2, ![2, 600000]⟩
abbrev S64x128 : Shape := ⟨2, ![64, 128]⟩
abbrev S128 : Shape := ⟨1, ![128]⟩
abbrev S128x128 : Shape := ⟨2, ![128, 128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x128 : Shape := ⟨2, ![50000, 128]⟩
abbrev S5000x64 : Shape := ⟨2, ![5000, 64]⟩
abbrev S5000x128 : Shape := ⟨2, ![5000, 128]⟩
abbrev S1x128 : Shape := ⟨2, ![1, 128]⟩
abbrev S650000x128 : Shape := ⟨2, ![650000, 128]⟩

abbrev nBuf : Space → Nat
  | .hbm => 89
  | .vmem => 28
  | .smem => 0
  | _ => 0

abbrev bufTy : (tb : Table) → Fin (tcTables nBuf tb) → BufTy
  | .hbm, ⟨0, _⟩ => ⟨S50000x64, .f32⟩
  | .hbm, ⟨1, _⟩ => ⟨S2x600000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S50000, .i32⟩
  | .hbm, ⟨9, _⟩ => ⟨S1x600000, .i32⟩
  | .hbm, ⟨10, _⟩ => ⟨S600000, .i32⟩
  | .hbm, ⟨11, _⟩ => ⟨S650000, .i32⟩
  | .hbm, ⟨12, _⟩ => ⟨S1x600000, .i32⟩
  | .hbm, ⟨13, _⟩ => ⟨S600000, .i32⟩
  | .hbm, ⟨14, _⟩ => ⟨S650000, .i32⟩
  | .hbm, ⟨15, _⟩ => ⟨S_, .f32⟩
  | .hbm, ⟨16, _⟩ => ⟨S650000, .f32⟩
  | .hbm, ⟨17, _⟩ => ⟨S_, .f32⟩
  | .hbm, ⟨18, _⟩ => ⟨S50000, .f32⟩
  | .hbm, ⟨19, _⟩ => ⟨S650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S650000, .i32⟩
  | .hbm, ⟨31, _⟩ => ⟨S650000, .i1⟩
  | .hbm, ⟨32, _⟩ => ⟨S_, .i32⟩
  | .hbm, ⟨33, _⟩ => ⟨S650000, .i32⟩
  | .hbm, ⟨34, _⟩ => ⟨S650000, .i32⟩
  | .hbm, ⟨35, _⟩ => ⟨S650000, .i32⟩
  | .hbm, ⟨36, _⟩ => ⟨S650000x1, .i32⟩
  | .hbm, ⟨37, _⟩ => ⟨S650000, .f32⟩
  | .hbm, ⟨38, _⟩ => ⟨S_, .i32⟩
  | .hbm, ⟨39, _⟩ => ⟨S650000, .i32⟩
  | .hbm, ⟨40, _⟩ => ⟨S650000, .i1⟩
  | .hbm, ⟨41, _⟩ => ⟨S_, .i32⟩
  | .hbm, ⟨42, _⟩ => ⟨S650000, .i32⟩
  | .hbm, ⟨43, _⟩ => ⟨S650000, .i32⟩
  | .hbm, ⟨44, _⟩ => ⟨S650000, .i32⟩
  | .hbm, ⟨45, _⟩ => ⟨S650000x1, .i32⟩
  | .hbm, ⟨46, _⟩ => ⟨S650000, .f32⟩
  | .hbm, ⟨47, _⟩ => ⟨S650000, .f32⟩
  | .hbm, ⟨48, _⟩ => ⟨S50000x128, .f32⟩
  | .hbm, ⟨49, _⟩ => ⟨S_, .f32⟩
  | .hbm, ⟨50, _⟩ => ⟨S128, .f32⟩
  | .hbm, ⟨51, _⟩ => ⟨S50000x128, .f32⟩
  | .hbm, ⟨52, _⟩ => ⟨S_, .i32⟩
  | .hbm, ⟨53, _⟩ => ⟨S650000, .i32⟩
  | .hbm, ⟨54, _⟩ => ⟨S650000, .i1⟩
  | .hbm, ⟨55, _⟩ => ⟨S_, .i32⟩
  | .hbm, ⟨56, _⟩ => ⟨S650000, .i32⟩
  | .hbm, ⟨57, _⟩ => ⟨S650000, .i32⟩
  | .hbm, ⟨58, _⟩ => ⟨S650000, .i32⟩
  | .hbm, ⟨59, _⟩ => ⟨S650000x1, .i32⟩
  | .hbm, ⟨60, _⟩ => ⟨S650000x128, .f32⟩
  | .hbm, ⟨61, _⟩ => ⟨S650000x1, .f32⟩
  | .hbm, ⟨62, _⟩ => ⟨S650000x128, .f32⟩
  | .hbm, ⟨63, _⟩ => ⟨S650000x128, .f32⟩
  | .hbm, ⟨64, _⟩ => ⟨S_, .f32⟩
  | .hbm, ⟨65, _⟩ => ⟨S50000x128, .f32⟩
  | .hbm, ⟨66, _⟩ => ⟨S650000x1, .i32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S128, .f32⟩
  | .hbm, ⟨71, _⟩ => ⟨S50000x128, .f32⟩
  | .hbm, ⟨72, _⟩ => ⟨S_, .i32⟩
  | .hbm, ⟨73, _⟩ => ⟨S650000, .i32⟩
  | .hbm, ⟨74, _⟩ => ⟨S650000, .i1⟩
  | .hbm, ⟨75, _⟩ => ⟨S_, .i32⟩
  | .hbm, ⟨76, _⟩ => ⟨S650000, .i32⟩
  | .hbm, ⟨77, _⟩ => ⟨S650000, .i32⟩
  | .hbm, ⟨78, _⟩ => ⟨S650000, .i32⟩
  | .hbm, ⟨79, _⟩ => ⟨S650000x1, .i32⟩
  | .hbm, ⟨80, _⟩ => ⟨S650000x128, .f32⟩
  | .hbm, ⟨81, _⟩ => ⟨S650000x1, .f32⟩
  | .hbm, ⟨82, _⟩ => ⟨S650000x128, .f32⟩
  | .hbm, ⟨83, _⟩ => ⟨S650000x128, .f32⟩
  | .hbm, ⟨84, _⟩ => ⟨S_, .f32⟩
  | .hbm, ⟨85, _⟩ => ⟨S50000x128, .f32⟩
  | .hbm, ⟨86, _⟩ => ⟨S650000x1, .i32⟩
  | .hbm, ⟨87, _⟩ => ⟨S50000x128, .f32⟩
  | .hbm, ⟨88, _⟩ => ⟨S50000x128, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_c_11 : Ref sig .tc := ⟨.hbm, 72, rfl⟩
abbrev main_v49 : Ref sig .tc := ⟨.hbm, 73, rfl⟩
abbrev main_v50 : Ref sig .tc := ⟨.hbm, 74, rfl⟩
abbrev main_c_12 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S128 : S_.BroadcastsInDim S128 (![] : Fin 0 → Fin S128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128_S128 : S128.ShapeCasts S128
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128.size a ≤ S128.size a
  hwx4_1 : ∀ i : grid4.Coords, EltTy.bits .f32 = 32 ∨ (Rect.block (s := S128) S128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v46) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x64 : Shape := ⟨2, ![50000, 64]⟩
abbrev S2x600000 : Shape := ⟨2, ![2, 600000]⟩
abbrev S64x128 : Shape := ⟨2, ![64, 128]⟩
abbrev S128 : Shape := ⟨1, ![128]⟩
abbrev S128x128 : Shape := ⟨2, ![128, 128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x128 : Shape := ⟨2, ![50000, 128]⟩
abbrev S1x128 : Shape := ⟨2, ![1, 128]⟩
abbrev S650000x128 : Shape := ⟨2, ![650000, 128]⟩

abbrev nBuf : Space → Nat
  | .hbm => 98
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x600000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S50000, .i32⟩
  | .hbm, ⟨9, _⟩ => ⟨S1x600000, .i32⟩
  | .hbm, ⟨10, _⟩ => ⟨S600000, .i32⟩
  | .hbm, ⟨11, _⟩ => ⟨S650000, .i32⟩
  | .hbm, ⟨12, _⟩ => ⟨S1x600000, .i32⟩
  | .hbm, ⟨13, _⟩ => ⟨S600000, .i32⟩
  | .hbm, ⟨14, _⟩ => ⟨S650000, .i32⟩
  | .hbm, ⟨15, _⟩ => ⟨S_, .f32⟩
  | .hbm, ⟨16, _⟩ => ⟨S650000, .f32⟩
  | .hbm, ⟨17, _⟩ => ⟨S_, .f32⟩
  | .hbm, ⟨18, _⟩ => ⟨S50000, .f32⟩
  | .hbm, ⟨19, _⟩ => ⟨S650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S650000, .i32⟩
  | .hbm, ⟨31, _⟩ => ⟨S650000, .i1⟩
  | .hbm, ⟨32, _⟩ => ⟨S_, .i32⟩
  | .hbm, ⟨33, _⟩ => ⟨S650000, .i32⟩
  | .hbm, ⟨34, _⟩ => ⟨S650000, .i32⟩
  | .hbm, ⟨35, _⟩ => ⟨S650000, .i32⟩
  | .hbm, ⟨36, _⟩ => ⟨S650000x1, .i32⟩
  | .hbm, ⟨37, _⟩ => ⟨S650000, .f32⟩
  | .hbm, ⟨38, _⟩ => ⟨S_, .i32⟩
  | .hbm, ⟨39, _⟩ => ⟨S650000, .i32⟩
  | .hbm, ⟨40, _⟩ => ⟨S650000, .i1⟩
  | .hbm, ⟨41, _⟩ => ⟨S_, .i32⟩
  | .hbm, ⟨42, _⟩ => ⟨S650000, .i32⟩
  | .hbm, ⟨43, _⟩ => ⟨S650000, .i32⟩
  | .hbm, ⟨44, _⟩ => ⟨S650000, .i32⟩
  | .hbm, ⟨45, _⟩ => ⟨S650000x1, .i32⟩
  | .hbm, ⟨46, _⟩ => ⟨S650000, .f32⟩
  | .hbm, ⟨47, _⟩ => ⟨S650000, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S_, .i32⟩
  | .hbm, ⟨54, _⟩ => ⟨S650000, .i32⟩
  | .hbm, ⟨55, _⟩ => ⟨S650000, .i1⟩
  | .hbm, ⟨56, _⟩ => ⟨S_, .i32⟩
  | .hbm, ⟨57, _⟩ => ⟨S650000, .i32⟩
  | .hbm, ⟨58, _⟩ => ⟨S650000, .i32⟩
  | .hbm, ⟨59, _⟩ => ⟨S650000, .i32⟩
  | .hbm, ⟨60, _⟩ => ⟨S650000x1, .i32⟩
  | .hbm, ⟨61, _⟩ => ⟨S650000x128, .f32⟩
  | .hbm, ⟨62, _⟩ => ⟨S650000x1, .f32⟩
  | .hbm, ⟨63, _⟩ => ⟨S650000x128, .f32⟩
  | .hbm, ⟨64, _⟩ => ⟨S650000x128, .f32⟩
  | .hbm, ⟨65, _⟩ => ⟨S_, .f32⟩
  | .hbm, ⟨66, _⟩ => ⟨S50000x128, .f32⟩
  | .hbm, ⟨67, _⟩ => ⟨S650000x1, .i32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S_, .i32⟩
  | .hbm, ⟨77, _⟩ => ⟨S650000, .i32⟩
  | .hbm, ⟨78, _⟩ => ⟨S650000, .i1⟩
  | .hbm, ⟨79, _⟩ => ⟨S_, .i32⟩
  | .hbm, ⟨80, _⟩ => ⟨S650000, .i32⟩
  | .hbm, ⟨81, _⟩ => ⟨S650000, .i32⟩
  | .hbm, ⟨82, _⟩ => ⟨S650000, .i32⟩
  | .hbm, ⟨83, _⟩ => ⟨S650000x1, .i32⟩
  | .hbm, ⟨84, _⟩ => ⟨S650000x128, .f32⟩
  | .hbm, ⟨85, _⟩ => ⟨S650000x1, .f32⟩
  | .hbm, ⟨86, _⟩ => ⟨S650000x128, .f32⟩
  | .hbm, ⟨87, _⟩ => ⟨S650000x128, .f32⟩
  | .hbm, ⟨88, _⟩ => ⟨S_, .f32⟩
  | .hbm, ⟨89, _⟩ => ⟨S50000x128, .f32⟩
  | .hbm, ⟨90, _⟩ => ⟨S650000x1, .i32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S50000x128, .f32⟩
  | .hbm, ⟨97, _⟩ => ⟨S50000x128, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_v51 : Ref sig .tc := ⟨.hbm, 74, rfl⟩
abbrev main_v52 : Ref sig .tc := ⟨.hbm, 75, rfl⟩
abbrev main_c_9 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call2_cst : Ref sig .tc := ⟨.hbm, 95, rfl⟩
abbrev main_call2_v0 : Ref sig .tc := ⟨.hbm, 96, rfl⟩
abbrev main_v69 : Ref sig .tc := ⟨.hbm, 97, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x64_S64x128_S50000x128_1_0_0_1_n_n_wf : DotDims.WF S50000x64 S64x128 S50000x128 [1] [0] [0] [1] [] []
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.KernelRun.lean ====
/-
  The kernel program's run with its result read.

  From any memory with zero counters every weakly fair execution of the program terminates, nothing faulting, and the
  final state has every live buffer at the last boundary's contents: in particular the result buffer holds what the
  boundary contents W12 hold there, and the arguments are as launched.
-/
import proofs.«124180_j8143257993843_1_alg».proof.Proof.Gen.KernelIdeal.Frame

-- indices along the 50000- and 650000-long axes need a deeper structural recursion than the default
set_option maxRecDepth 16384

noncomputable section

namespace Cert.Bridge.KRun

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the several-regions run theorem's implicit arguments are found by unifying its conclusion with this one
set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v62) = W12 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v62 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.Bridge.KRun

end
-- ==== Proof.BlockArith.lean ====
/-
  One grid point's arithmetic, read at an entry.

  Every tensor-core call of this program works on a block of 5000 node rows.  A "linear" call multiplies the block
  [5000, K] (K = 64 for the input layer, K = 128 for the two graph-convolution layers) by a weight matrix [K, 128] on
  the matrix unit, into a zero accumulator, and adds a bias row; a "bias + clamp" call adds a bias row to the block
  and takes the maximum with zero.  Over the extended reals a change of float format is the identity, so the
  operands the matrix unit sees are the loaded ones, and the accumulated product at entry (p, q) is the plain sum
  over k of x[p, k] * w[k, q]; the bias row, cast to [1, 128] and broadcast over the rows, reads b[q] at (p, q).
-/
import proofs.«124180_j8143257993843_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Bridge

open Idealize.ShloMosaic Idealize.ShloMosaic.ValueIdx Cert.KernelIdeal Cert.KernelIdeal.Gen

/-- The bias row as the body spreads it over a block: cast [128] → [1, 128], then broadcast over 5000 rows; at
    (p, q) it reads b[q]. -/
theorem biasRow_apply (b : FVec Ideal S128 .f32) (p : Fin 5000) (q : Fin 128) :
    broadcastTo S5000x128 (shapeCast S1x128 b shapeCasts_S128_S1x128) broadcasts_S1x128_S5000x128 (ix2 p q) = b (ix1 q) := by
  rw [broadcastTo_1b_ab_apply, shapeCast_a_1a_apply]

/-- At output entry `j` the left operand's row coordinate is `j`'s row, whatever the contraction coordinate. -/
theorem dot64_lhs0 (j : S5000x128.Idx) (r : dot_S5000x64_S64x128_S5000x128_1_0_0_1_n_n.contr.Idx) : (dot_S5000x64_S64x128_S5000x128_1_0_0_1_n_n.lhsIdx j r 0).val = (j 0).val := by
  unfold DotDims.lhsIdx
  rw [dif_neg (show ¬(0 : Fin S5000x64.rank) ∈ dot_S5000x64_S64x128_S5000x128_1_0_0_1_n_n.lhsBatch by decide),
    dif_pos (show (0 : Fin S5000x64.rank) ∈ dot_S5000x64_S64x128_S5000x128_1_0_0_1_n_n.lhsNonContracting by decide)]
  rfl
/-- … and the right operand's column coordinate is `j`'s column. -/
theorem dot64_rhs1 (j : S5000x128.Idx) (r : dot_S5000x64_S64x128_S5000x128_1_0_0_1_n_n.contr.Idx) : (dot_S5000x64_S64x128_S5000x128_1_0_0_1_n_n.rhsIdx j r 1).val = (j 1).val := by
  unfold DotDims.rhsIdx
  rw [dif_neg (show ¬(1 : Fin S64x128.rank) ∈ dot_S5000x64_S64x128_S5000x128_1_0_0_1_n_n.rhsBatch by decide),
    dif_pos (show (1 : Fin S64x128.rank) ∈ dot_S5000x64_S64x128_S5000x128_1_0_0_1_n_n.rhsNonContracting by decide)]
  rfl

/-- Operand indices of the product at output entry (p, q) and contraction coordinate k: (p, k) and (k, q). -/
theorem dot64_lhs (p : Fin 5000) (q : Fin 128) (k : Fin 64) :
    dot_S5000x64_S64x128_S5000x128_1_0_0_1_n_n.lhsIdx (ix2 p q) ((contrEquiv1 dot_S5000x64_S64x128_S5000x128_1_0_0_1_n_n 64 rfl rfl).symm k) = ix2 p k := by
  have hk := contrEquiv1_symm_val dot_S5000x64_S64x128_S5000x128_1_0_0_1_n_n 64 rfl rfl k
  refine funext fun a => Fin.ext ?_
  match a with
  | ⟨0, _⟩ => exact dot64_lhs0 _ _
  | ⟨1, _⟩ => exact (dot_S5000x64_S64x128_S5000x128_1_0_0_1_n_n.lhsIdx_val_of_single rfl _ _).trans hk

theorem dot64_rhs (p : Fin 5000) (q : Fin 128) (k : Fin 64) :
    dot_S5000x64_S64x128_S5000x128_1_0_0_1_n_n.rhsIdx (ix2 p q) ((contrEquiv1 dot_S5000x64_S64x128_S5000x128_1_0_0_1_n_n 64 rfl rfl).symm k) = ix2 k q := by
  have hk := contrEquiv1_symm_val dot_S5000x64_S64x128_S5000x128_1_0_0_1_n_n 64 rfl rfl k
  refine funext fun a => Fin.ext ?_
  match a with
  | ⟨0, _⟩ => exact (dot_S5000x64_S64x128_S5000x128_1_0_0_1_n_n.rhsIdx_val_of_single rfl _ _).trans hk
  | ⟨1, _⟩ => exact dot64_rhs1 _ _

/-- The matrix unit's [5000, 64] × [64, 128] product into the zero accumulator, at (p, q): the sum over k. -/
theorem matmul64_apply {φ₁ φ₂ : FTy} (x : FVec Ideal S5000x64 φ₁) (w : FVec Ideal S64x128 φ₂) (p : Fin 5000) (q : Fin 128) :
    matmul dot_S5000x64_S64x128_S5000x128_1_0_0_1_n_n none x w (constant (F := Ideal) S5000x128 .f32 0x00000000#32) (ix2 p q)
      = ∑ k : Fin 64, x (ix2 p k) * w (ix2 k q) := by
  refine (Ideal.matmul_constant_zero_apply dot_S5000x64_S64x128_S5000x128_1_0_0_1_n_n none x w (ix2 p q)).trans ?_
  rw [← Equiv.sum_comp (contrEquiv1 dot_S5000x64_S64x128_S5000x128_1_0_0_1_n_n 64 rfl rfl).symm]
  refine Finset.sum_congr rfl fun k _ => ?_
  rw [dot64_lhs, dot64_rhs]

/-- At output entry `j` the left operand's row coordinate is `j`'s row, whatever the contraction coordinate. -/
theorem dot128_lhs0 (j : S5000x128.Idx) (r : dot_S5000x128_S128x128_S5000x128_1_0_0_1_n_n.contr.Idx) : (dot_S5000x128_S128x128_S5000x128_1_0_0_1_n_n.lhsIdx j r 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- … and the right operand's column coordinate is `j`'s column. -/
theorem dot128_rhs1 (j : S5000x128.Idx) (r : dot_S5000x128_S128x128_S5000x128_1_0_0_1_n_n.contr.Idx) : (dot_S5000x128_S128x128_S5000x128_1_0_0_1_n_n.rhsIdx j r 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Operand indices of the product at output entry (p, q) and contraction coordinate k: (p, k) and (k, q). -/
theorem dot128_lhs (p : Fin 5000) (q : Fin 128) (k : Fin 128) :
    dot_S5000x128_S128x128_S5000x128_1_0_0_1_n_n.lhsIdx (ix2 p q) ((contrEquiv1 dot_S5000x128_S128x128_S5000x128_1_0_0_1_n_n 128 rfl rfl).symm k) = ix2 p k := by
  have hk := contrEquiv1_symm_val dot_S5000x128_S128x128_S5000x128_1_0_0_1_n_n 128 rfl rfl k
  refine funext fun a => Fin.ext ?_
  match a with
  | ⟨0, _⟩ => exact dot128_lhs0 _ _
  | ⟨1, _⟩ => exact (dot_S5000x128_S128x128_S5000x128_1_0_0_1_n_n.lhsIdx_val_of_single rfl _ _).trans hk

theorem dot128_rhs (p : Fin 5000) (q : Fin 128) (k : Fin 128) :
    dot_S5000x128_S128x128_S5000x128_1_0_0_1_n_n.rhsIdx (ix2 p q) ((contrEquiv1 dot_S5000x128_S128x128_S5000x128_1_0_0_1_n_n 128 rfl rfl).symm k) = ix2 k q := by
  have hk := contrEquiv1_symm_val dot_S5000x128_S128x128_S5000x128_1_0_0_1_n_n 128 rfl rfl k
  refine funext fun a => Fin.ext ?_
  match a with
  | ⟨0, _⟩ => exact (dot_S5000x128_S128x128_S5000x128_1_0_0_1_n_n.rhsIdx_val_of_single rfl _ _).trans hk
  | ⟨1, _⟩ => exact dot128_rhs1 _ _

/-- The matrix unit's [5000, 128] × [128, 128] product into the zero accumulator, at (p, q): the sum over k. -/
theorem matmul128_apply {φ₁ φ₂ : FTy} (x : FVec Ideal S5000x128 φ₁) (w : FVec Ideal S128x128 φ₂) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  refine (Ideal.matmul_constant_zero_apply dot_S5000x128_S128x128_S5000x128_1_0_0_1_n_n none x w (ix2 p q)).trans ?_
  rw [← Equiv.sum_comp (contrEquiv1 dot_S5000x128_S128x128_S5000x128_1_0_0_1_n_n 128 rfl rfl).symm]
  refine Finset.sum_congr rfl fun k _ => ?_
  rw [dot128_lhs, dot128_rhs]

/-- The input layer's block at (p, q): the row of x against the column of w, plus the bias. -/
theorem k0_pay1_apply (x : FVec Ideal S5000x64 .f32) (w : FVec Ideal S64x128 .f32) (b : FVec Ideal S128 .f32)
    (p : Fin 5000) (q : Fin 128) :
    k0_pay1 x w b (ix2 p q) = (∑ k : Fin 64, x (ix2 p k) * w (ix2 k q)) + b (ix1 q) := by
  unfold k0_pay1
  refine (addf_apply _ _ _).trans ?_
  refine congrArg₂ (· + ·) ?_ (biasRow_apply b p q)
  exact matmul64_apply (truncf .bf16 x bitsLt_bf16_f32) (truncf .bf16 w bitsLt_bf16_f32) p q

/-- A convolution layer's linear block at (p, q): the row of h against the column of w, plus the bias row it is given. -/
theorem k1_pay1_apply (h : FVec Ideal S5000x128 .f32) (w : FVec Ideal S128x128 .f32) (b : FVec Ideal S128 .f32)
    (p : Fin 5000) (q : Fin 128) :
    k1_pay1 h w b (ix2 p q) = (∑ k : Fin 128, h (ix2 p k) * w (ix2 k q)) + b (ix1 q) := by
  unfold k1_pay1
  rw [shapeCast_self h, shapeCast_self b]
  refine (addf_apply _ _ _).trans ?_
  refine congrArg₂ (· + ·) ?_ (biasRow_apply b p q)
  exact matmul128_apply (truncf .bf16 h bitsLt_bf16_f32) (truncf .bf16 w bitsLt_bf16_f32) p q

theorem k3_pay1_apply (h : FVec Ideal S5000x128 .f32) (w : FVec Ideal S128x128 .f32) (b : FVec Ideal S128 .f32)
    (p : Fin 5000) (q : Fin 128) :
    k3_pay1 h w b (ix2 p q) = (∑ k : Fin 128, h (ix2 p k) * w (ix2 k q)) + b (ix1 q) := by
  unfold k3_pay1
  rw [shapeCast_self h, shapeCast_self b]
  refine (addf_apply _ _ _).trans ?_
  refine congrArg₂ (· + ·) ?_ (biasRow_apply b p q)
  exact matmul128_apply (truncf .bf16 h bitsLt_bf16_f32) (truncf .bf16 w bitsLt_bf16_f32) p q

/-- A bias + clamp block at (p, q): max(a[p, q] + b[q], 0). -/
theorem k2_pay1_apply (a : FVec Ideal S5000x128 .f32) (b : FVec Ideal S128 .f32) (p : Fin 5000) (q : Fin 128) :
    k2_pay1 a b (ix2 p q) = max (a (ix2 p q) + b (ix1 q)) (Ideal.ofBits .f32 0x00000000#32) := by
  unfold k2_pay1
  rw [shapeCast_self a]
  refine (maximumf_apply _ _ _).trans ?_
  refine congrArg₂ max ?_ rfl
  refine (addf_apply _ _ _).trans ?_
  exact congrArg₂ (· + ·) rfl (biasRow_apply b p q)

theorem k4_pay1_apply (a : FVec Ideal S5000x128 .f32) (b : FVec Ideal S128 .f32) (p : Fin 5000) (q : Fin 128) :
    k4_pay1 a b (ix2 p q) = max (a (ix2 p q) + b (ix1 q)) (Ideal.ofBits .f32 0x00000000#32) := by
  unfold k4_pay1
  rw [shapeCast_self a]
  refine (maximumf_apply _ _ _).trans ?_
  refine congrArg₂ max ?_ rfl
  refine (addf_apply _ _ _).trans ?_
  exact congrArg₂ (· + ·) rfl (biasRow_apply b p q)

end Cert.Bridge

end
-- ==== Proof.LayerSpec.lean ====
/-
  The three layer shapes of the network as whole-array functions over the extended reals, entry by entry.

  * `affine64`  : rows of a [50000, 64] array against the columns of a [64, 128] matrix, plus a bias row;
  * `affine128` : the same for a [50000, 128] array and a [128, 128] matrix;
  * `shiftClamp`: a bias row added to a [50000, 128] array, then the maximum with zero.

  A node's row depends only on that node's row of the operand, which is why a call that works on 5000 rows at a time
  computes block by block what these functions say for the whole array.
-/
import Idealize.ShloMosaic.Lib.ValueIdx
import Idealize.ShloMosaic.PureOps.Ideal

noncomputable section

open scoped BigOperators

namespace Cert.Bridge

open Idealize.ShloMosaic Idealize.ShloMosaic.ValueIdx

/-- Entry (r, q) of X·W + b for X : [50000, 64], W : [64, 128], b : [128]. -/
def affine64At (X : (⟨2, ![50000, 64]⟩ : Shape).Idx → EReal) (W : (⟨2, ![64, 128]⟩ : Shape).Idx → EReal)
    (b : (⟨1, ![128]⟩ : Shape).Idx → EReal) (r : Fin 50000) (q : Fin 128) : EReal :=
  (∑ k : Fin 64, X (ix2 r k) * W (ix2 k q)) + b (ix1 q)

/-- X·W + b as an array. -/
def affine64 (X : (⟨2, ![50000, 64]⟩ : Shape).Idx → EReal) (W : (⟨2, ![64, 128]⟩ : Shape).Idx → EReal)
    (b : (⟨1, ![128]⟩ : Shape).Idx → EReal) : (⟨2, ![50000, 128]⟩ : Shape).Idx → EReal :=
  fun i => affine64At X W b ⟨(i 0).val, (i 0).isLt⟩ ⟨(i 1).val, (i 1).isLt⟩

/-- Entry (r, q) of H·W + b for H : [50000, 128], W : [128, 128], b : [128]. -/
def affine128At (H : (⟨2, ![50000, 128]⟩ : Shape).Idx → EReal) (W : (⟨2, ![128, 128]⟩ : Shape).Idx → EReal)
    (b : (⟨1, ![128]⟩ : Shape).Idx → EReal) (r : Fin 50000) (q : Fin 128) : EReal :=
  (∑ k : Fin 128, H (ix2 r k) * W (ix2 k q)) + b (ix1 q)

/-- H·W + b as an array. -/
def affine128 (H : (⟨2, ![50000, 128]⟩ : Shape).Idx → EReal) (W : (⟨2, ![128, 128]⟩ : Shape).Idx → EReal)
    (b : (⟨1, ![128]⟩ : Shape).Idx → EReal) : (⟨2, ![50000, 128]⟩ : Shape).Idx → EReal :=
  fun i => affine128At H W b ⟨(i 0).val, (i 0).isLt⟩ ⟨(i 1).val, (i 1).isLt⟩

/-- Entry (r, q) of max(A + b, 0), the zero being the float word 0x00000000 read as an extended real. -/
def shiftClampAt (A : (⟨2, ![50000, 128]⟩ : Shape).Idx → EReal) (b : (⟨1, ![128]⟩ : Shape).Idx → EReal)
    (r : Fin 50000) (q : Fin 128) : EReal :=
  max (A (ix2 r q) + b (ix1 q)) (Ideal.ofBits .f32 0x00000000#32)

/-- max(A + b, 0) as an array. -/
def shiftClamp (A : (⟨2, ![50000, 128]⟩ : Shape).Idx → EReal) (b : (⟨1, ![128]⟩ : Shape).Idx → EReal) :
    (⟨2, ![50000, 128]⟩ : Shape).Idx → EReal :=
  fun i => shiftClampAt A b ⟨(i 0).val, (i 0).isLt⟩ ⟨(i 1).val, (i 1).isLt⟩

end Cert.Bridge

end
-- ==== Proof.Region0.lean ====
/-
  Call 0 of the kernel (a linear layer), from blocks to the whole array.

  Grid point t stages rows 5000·t … 5000·t + 4999 of its [50000, 64] operand, the whole [64, 128] weight matrix and the
  whole bias row, and writes back the same rows of its result.  A node's row of the product depends only on that node's
  row of the operand, so what point t writes back is block t of `affine64` of the whole arrays; the ten blocks cover the
  result.
-/
import proofs.«124180_j8143257993843_1_alg».proof.Proof.Gen.KernelIdeal.Frame
import proofs.«124180_j8143257993843_1_alg».proof.Proof.BlockArith
import proofs.«124180_j8143257993843_1_alg».proof.Proof.LayerSpec
import Idealize.ShloMosaic.Lib.Pipeline.Value

set_option maxRecDepth 16384

noncomputable section

open scoped BigOperators

namespace Cert.Bridge.Region0

open Idealize.ShloMosaic Idealize.ShloMosaic.TcCoe Idealize.ShloMosaic.ValueIdx Idealize.SL.Sem Cert.KernelIdeal Cert.KernelIdeal.Gen Cert.Bridge
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the operand's and the result's row block is the point's number; every other
    block index is 0 (the weights and the bias are staged whole). -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0 ∧ win0_3.index t (0 : Fin 2) = t.val ∧ win0_3.index t (1 : Fin 2) = 0 :=
  (by decide +kernel : ∀ t : Fin grid0.N, _)

/-- What point t writes back is block t of `affine64` of the operand, the weights and the bias as the call finds them. -/
theorem flushed_eq (c : Dev nD) (t : Fin cfg0.N) :
    (dat0 V c).flushed 3 t
      = ((cfg0.win 3).blk t).view.read (Elt Ideal) (affine64 (V c main_arg0) (V c main_arg2) (V c main_arg3)) := by
  show (cfg0.win 3).cut (grid0.coords t) ((dat0 V c).after 3 t) = _
  rw [after0_3]
  unfold out0_3
  rw [View.canon_unit_zero zero2]
  simp only [View.ld_unit_zero (S := S5000x64) zero2, View.ld_unit_zero (S := S64x128) zero2, View.ld_unit_zero (S := S128) zero1]
  obtain ⟨e0, e1, e2, e3, e4, e5, e6⟩ := blockIndex t
  refine funext fun (j : S5000x128.Idx) => ?_
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
      = affine64 (V c main_arg0) (V c main_arg2) (V c main_arg3) (((cfg0.win 3).blk t).view.emb (ix2 p q))
  refine (k0_pay1_apply (iblk0 V c 0 t) (iblk0 V c 1 t) (iblk0 V c 2 t) p q).trans ?_
  unfold affine64 affine64At
  have hx : ∀ k : Fin 64, ((cfg0.win 0).blk t).view.emb (ix2 p k)
      = ix2 (⟨((((cfg0.win 3).blk t).view.emb (ix2 p q)) 0).val, ((((cfg0.win 3).blk t).view.emb (ix2 p q)) 0).isLt⟩ : Fin 50000) k := by
    intro k; funext a; apply Fin.ext
    match a with
    | ⟨0, _⟩ => show win0_0.index t (0 : Fin 2) * 5000 + 1 * p.val = win0_3.index t (0 : Fin 2) * 5000 + 1 * p.val; rw [e0, e5]
    | ⟨1, _⟩ => show win0_0.index t (1 : Fin 2) * 64 + 1 * k.val = k.val; rw [e1]; omega
  have hw : ∀ k : Fin 64, ((cfg0.win 1).blk t).view.emb (ix2 k q)
      = ix2 k (⟨((((cfg0.win 3).blk t).view.emb (ix2 p q)) 1).val, ((((cfg0.win 3).blk t).view.emb (ix2 p q)) 1).isLt⟩ : Fin 128) := by
    intro k; funext a; apply Fin.ext
    match a with
    | ⟨0, _⟩ => show win0_1.index t (0 : Fin 2) * 64 + 1 * k.val = k.val; rw [e2]; omega
    | ⟨1, _⟩ => show win0_1.index t (1 : Fin 2) * 128 + 1 * q.val = win0_3.index t (1 : Fin 2) * 128 + 1 * q.val; rw [e3, e6]
  have hb : ((cfg0.win 2).blk t).view.emb (ix1 q)
      = ix1 (⟨((((cfg0.win 3).blk t).view.emb (ix2 p q)) 1).val, ((((cfg0.win 3).blk t).view.emb (ix2 p q)) 1).isLt⟩ : Fin 128) := by
    funext a; apply Fin.ext
    match a with
    | ⟨0, _⟩ => show win0_2.index t (0 : Fin 1) * 128 + 1 * q.val = win0_3.index t (1 : Fin 2) * 128 + 1 * q.val; rw [e4, e6]
  refine congrArg₂ (· + ·) (Finset.sum_congr rfl fun k _ => congrArg₂ (· * ·) ?_ ?_) ?_
  · show V c main_arg0 (((cfg0.win 0).blk t).view.emb (ix2 p k)) = _
    exact congrArg (V c main_arg0 : S50000x64.Idx → EReal) (hx k)
  · show V c main_arg2 (((cfg0.win 1).blk t).view.emb (ix2 k q)) = _
    exact congrArg (V c main_arg2 : S64x128.Idx → EReal) (hw k)
  · show V c main_arg3 (((cfg0.win 2).blk t).view.emb (ix1 q)) = _
    exact congrArg (V c main_arg3 : S128.Idx → EReal) hb

/-- An index of the result is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v30).slice (win0_3.rect t)).set ↔ _
  rw [View.set_slice_whole, Rect.mem_set_unit]
  exact Iff.rfl

/-- Every row of the result lies in some point's block: row r in point r / 5000's. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_3 _, ?_⟩
  rw [mem_blk]
  obtain ⟨-, -, -, -, -, e5, e6⟩ := blockIndex ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e5]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e6]; omega

/-- The result array after the call: `affine64` of the operand, the weights and the bias as the call found them. -/
theorem final (c : Dev nD) :
    (dat0 V c).arrAt 3 cfg0.N = affine64 (V c main_arg0) (V c main_arg2) (V c main_arg3) :=
  (dat0 V c).arrAt_eq_of_cover 3 _ (fun t _ => flushed_eq V c t) covered

end Cert.Bridge.Region0

end
-- ==== Proof.Region1.lean ====
/-
  Call 1 of the kernel (a linear layer), from blocks to the whole array.

  Grid point t stages rows 5000·t … 5000·t + 4999 of its [50000, 128] operand, the whole [128, 128] weight matrix and the
  whole bias row, and writes back the same rows of its result.  A node's row of the product depends only on that node's
  row of the operand, so what point t writes back is block t of `affine128` of the whole arrays; the ten blocks cover the
  result.
-/
import proofs.«124180_j8143257993843_1_alg».proof.Proof.Gen.KernelIdeal.Frame
import proofs.«124180_j8143257993843_1_alg».proof.Proof.BlockArith
import proofs.«124180_j8143257993843_1_alg».proof.Proof.LayerSpec
import Idealize.ShloMosaic.Lib.Pipeline.Value

set_option maxRecDepth 16384

noncomputable section

open scoped BigOperators

namespace Cert.Bridge.Region1

open Idealize.ShloMosaic Idealize.ShloMosaic.TcCoe Idealize.ShloMosaic.ValueIdx Idealize.SL.Sem Cert.KernelIdeal Cert.KernelIdeal.Gen Cert.Bridge
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the operand's and the result's row block is the point's number; every other
    block index is 0 (the weights and the bias are staged whole). -/
theorem blockIndex : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0 ∧ win1_3.index t (0 : Fin 2) = t.val ∧ win1_3.index t (1 : Fin 2) = 0 :=
  (by decide +kernel : ∀ t : Fin grid1.N, _)

/-- What point t writes back is block t of `affine128` of the operand, the weights and the bias as the call finds them. -/
theorem flushed_eq (c : Dev nD) (t : Fin cfg1.N) :
    (dat1 V c).flushed 3 t
      = ((cfg1.win 3).blk t).view.read (Elt Ideal) (affine128 (V c main_v30) (V c main_arg4) (V c main_v31)) := by
  show (cfg1.win 3).cut (grid1.coords t) ((dat1 V c).after 3 t) = _
  rw [after1_3]
  unfold out1_3
  rw [View.canon_unit_zero zero2]
  simp only [View.ld_unit_zero (S := S5000x128) zero2, View.ld_unit_zero (S := S128x128) zero2, View.ld_unit_zero (S := S128) zero1]
  obtain ⟨e0, e1, e2, e3, e4, e5, e6⟩ := blockIndex t
  refine funext fun (j : S5000x128.Idx) => ?_
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q)
      = affine128 (V c main_v30) (V c main_arg4) (V c main_v31) (((cfg1.win 3).blk t).view.emb (ix2 p q))
  refine (k1_pay1_apply (iblk1 V c 0 t) (iblk1 V c 1 t) (iblk1 V c 2 t) p q).trans ?_
  unfold affine128 affine128At
  have hx : ∀ k : Fin 128, ((cfg1.win 0).blk t).view.emb (ix2 p k)
      = ix2 (⟨((((cfg1.win 3).blk t).view.emb (ix2 p q)) 0).val, ((((cfg1.win 3).blk t).view.emb (ix2 p q)) 0).isLt⟩ : Fin 50000) k := by
    intro k; funext a; apply Fin.ext
    match a with
    | ⟨0, _⟩ => show win1_0.index t (0 : Fin 2) * 5000 + 1 * p.val = win1_3.index t (0 : Fin 2) * 5000 + 1 * p.val; rw [e0, e5]
    | ⟨1, _⟩ => show win1_0.index t (1 : Fin 2) * 128 + 1 * k.val = k.val; rw [e1]; omega
  have hw : ∀ k : Fin 128, ((cfg1.win 1).blk t).view.emb (ix2 k q)
      = ix2 k (⟨((((cfg1.win 3).blk t).view.emb (ix2 p q)) 1).val, ((((cfg1.win 3).blk t).view.emb (ix2 p q)) 1).isLt⟩ : Fin 128) := by
    intro k; funext a; apply Fin.ext
    match a with
    | ⟨0, _⟩ => show win1_1.index t (0 : Fin 2) * 128 + 1 * k.val = k.val; rw [e2]; omega
    | ⟨1, _⟩ => show win1_1.index t (1 : Fin 2) * 128 + 1 * q.val = win1_3.index t (1 : Fin 2) * 128 + 1 * q.val; rw [e3, e6]
  have hb : ((cfg1.win 2).blk t).view.emb (ix1 q)
      = ix1 (⟨((((cfg1.win 3).blk t).view.emb (ix2 p q)) 1).val, ((((cfg1.win 3).blk t).view.emb (ix2 p q)) 1).isLt⟩ : Fin 128) := by
    funext a; apply Fin.ext
    match a with
    | ⟨0, _⟩ => show win1_2.index t (0 : Fin 1) * 128 + 1 * q.val = win1_3.index t (1 : Fin 2) * 128 + 1 * q.val; rw [e4, e6]
  refine congrArg₂ (· + ·) (Finset.sum_congr rfl fun k _ => congrArg₂ (· * ·) ?_ ?_) ?_
  · show V c main_v30 (((cfg1.win 0).blk t).view.emb (ix2 p k)) = _
    exact congrArg (V c main_v30 : S50000x128.Idx → EReal) (hx k)
  · show V c main_arg4 (((cfg1.win 1).blk t).view.emb (ix2 k q)) = _
    exact congrArg (V c main_arg4 : S128x128.Idx → EReal) (hw k)
  · show V c main_v31 (((cfg1.win 2).blk t).view.emb (ix1 q)) = _
    exact congrArg (V c main_v31 : S128.Idx → EReal) hb

/-- An index of the result is in point t's block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v32).slice (win1_3.rect t)).set ↔ _
  rw [View.set_slice_whole, Rect.mem_set_unit]
  exact Iff.rfl

/-- Every row of the result lies in some point's block: row r in point r / 5000's. -/
theorem covered (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_3 _, ?_⟩
  rw [mem_blk]
  obtain ⟨-, -, -, -, -, e5, e6⟩ := blockIndex ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e5]; show (i 0).val / 5000 * 5000 ≤ (i 0).val ∧ (i 0).val < (i 0).val / 5000 * 5000 + 5000; omega
  | ⟨1, _⟩ =>
    show win1_3.index _ (1 : Fin 2) * 128 ≤ (i 1).val ∧ (i 1).val < win1_3.index _ (1 : Fin 2) * 128 + 128
    rw [e6]; omega

/-- The result array after the call: `affine128` of the operand, the weights and the bias as the call found them. -/
theorem final (c : Dev nD) :
    (dat1 V c).arrAt 3 cfg1.N = affine128 (V c main_v30) (V c main_arg4) (V c main_v31) :=
  (dat1 V c).arrAt_eq_of_cover 3 _ (fun t _ => flushed_eq V c t) covered

end Cert.Bridge.Region1

end
-- ==== Proof.Region2.lean ====
/-
  Call 2 of the kernel (bias + clamp), from blocks to the whole array.

  Grid point t stages rows 5000·t … 5000·t + 4999 of its [50000, 128] operand and the whole bias row, and writes back the
  same rows of its result.  A node's row of `shiftClamp` depends only on that node's row of the operand, so what point t
  writes back is block t of `shiftClamp` of the whole arrays; the ten blocks cover the result.
-/
import proofs.«124180_j8143257993843_1_alg».proof.Proof.Gen.KernelIdeal.Frame
import proofs.«124180_j8143257993843_1_alg».proof.Proof.BlockArith
import proofs.«124180_j8143257993843_1_alg».proof.Proof.LayerSpec
import Idealize.ShloMosaic.Lib.Pipeline.Value

set_option maxRecDepth 16384

noncomputable section

namespace Cert.Bridge.Region2

open Idealize.ShloMosaic Idealize.ShloMosaic.TcCoe Idealize.ShloMosaic.ValueIdx Idealize.SL.Sem Cert.KernelIdeal Cert.KernelIdeal.Gen Cert.Bridge
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the operand's and the result's row block is the point's number, the column
    block and the bias row's block are 0. -/
theorem blockIndex : ∀ t : Fin cfg2.N, win2_0.index t (0 : Fin 2) = t.val ∧ win2_0.index t (1 : Fin 2) = 0
    ∧ win2_1.index t (0 : Fin 1) = 0 ∧ win2_2.index t (0 : Fin 2) = t.val ∧ win2_2.index t (1 : Fin 2) = 0 :=
  (by decide +kernel : ∀ t : Fin grid2.N, _)

/-- What point t writes back is block t of `shiftClamp` of the operand array and the bias as the call finds them. -/
theorem flushed_eq (c : Dev nD) (t : Fin cfg2.N) :
    (dat2 V c).flushed 2 t
      = ((cfg2.win 2).blk t).view.read (Elt Ideal) (shiftClamp (V c main_v45) (V c main_arg5)) := by
  show (cfg2.win 2).cut (grid2.coords t) ((dat2 V c).after 2 t) = _
  rw [after2_2]
  unfold out2_2
  rw [View.canon_unit_zero zero2]
  simp only [View.ld_unit_zero (S := S5000x128) zero2, View.ld_unit_zero (S := S128) zero1]
  obtain ⟨e0, e1, e2, e3, e4⟩ := blockIndex t
  refine funext fun (j : S5000x128.Idx) => ?_
  obtain ⟨p, q, rfl⟩ : ∃ (p : Fin 5000) (q : Fin 128), j = ix2 p q := ⟨j 0, j 1, eq_ix2 j⟩
  show k2_pay1 (iblk2 V c 0 t) (iblk2 V c 1 t) (ix2 p q)
      = shiftClamp (V c main_v45) (V c main_arg5) (((cfg2.win 2).blk t).view.emb (ix2 p q))
  refine (k2_pay1_apply (iblk2 V c 0 t) (iblk2 V c 1 t) p q).trans ?_
  unfold shiftClamp shiftClampAt
  have hrow : ((cfg2.win 0).blk t).view.emb (ix2 p q)
      = ix2 (⟨((((cfg2.win 2).blk t).view.emb (ix2 p q)) 0).val, ((((cfg2.win 2).blk t).view.emb (ix2 p q)) 0).isLt⟩ : Fin 50000)
          (⟨((((cfg2.win 2).blk t).view.emb (ix2 p q)) 1).val, ((((cfg2.win 2).blk t).view.emb (ix2 p q)) 1).isLt⟩ : Fin 128) := by
    funext a; apply Fin.ext
    match a with
    | ⟨0, _⟩ => show win2_0.index t (0 : Fin 2) * 5000 + 1 * p.val = win2_2.index t (0 : Fin 2) * 5000 + 1 * p.val; rw [e0, e3]
    | ⟨1, _⟩ => show win2_0.index t (1 : Fin 2) * 128 + 1 * q.val = win2_2.index t (1 : Fin 2) * 128 + 1 * q.val; rw [e1, e4]
  have hcol : ((cfg2.win 1).blk t).view.emb (ix1 q)
      = ix1 (⟨((((cfg2.win 2).blk t).view.emb (ix2 p q)) 1).val, ((((cfg2.win 2).blk t).view.emb (ix2 p q)) 1).isLt⟩ : Fin 128) := by
    funext a; apply Fin.ext
    match a with
    | ⟨0, _⟩ => show win2_1.index t (0 : Fin 1) * 128 + 1 * q.val = win2_2.index t (1 : Fin 2) * 128 + 1 * q.val; rw [e2, e4]
  refine congrArg₂ max (congrArg₂ (· + ·) ?_ ?_) rfl
  · show V c main_v45 (((cfg2.win 0).blk t).view.emb (ix2 p q)) = _
    exact congrArg (V c main_v45 : S50000x128.Idx → EReal) hrow
  · show V c main_arg5 (((cfg2.win 1).blk t).view.emb (ix1 q)) = _
    exact congrArg (V c main_arg5 : S128.Idx → EReal) hcol

/-- An index of the result is in point t's block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- Every row of the result lies in some point's block: row r in point r / 5000's. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_2 _, ?_⟩
  rw [mem_blk]
  obtain ⟨-, -, -, e3, e4⟩ := blockIndex ⟨(i 0).val / 5000, by rw [hN]; omega⟩
  intro a
  match a with
  | ⟨0, _⟩ =>
    show win2_2.index _ (0 : Fin 2) * 5000 ≤ (i 0).val ∧ (i 0).val < win2_2.index _ (0 : Fin 2) * 5000 + 5000
    rw [e3]; show (i 0).val / 5000 * 5000 ≤ (i 0).val ∧ (i 0).val < (i 0).val / 5000 * 5000 + 5000; omega
  | ⟨1, _⟩ =>
    show win2_2.index _ (1 : Fin 2) * 128 ≤ (i 1).val ∧ (i 1).val < win2_2.index _ (1 : Fin 2) * 128 + 128
    rw [e4]; omega

/-- The result array after the call: `shiftClamp` of the operand array and the bias as the call found them. -/
theorem final (c : Dev nD) :
    (dat2 V c).arrAt 2 cfg2.N = shiftClamp (V c main_v45) (V c main_arg5) :=
  (dat2 V c).arrAt_eq_of_cover 2 _ (fun t _ => flushed_eq V c t) covered

end Cert.Bridge.Region2

end
-- ==== Proof.Region3.lean ====
/-
  Call 3 of the kernel (a linear layer), from blocks to the whole array.

  Grid point t stages rows 5000·t … 5000·t + 4999 of its [50000, 128] operand, the whole [128, 128] weight matrix and the
  whole bias row, and writes back the same rows of its result.  A node's row of the product depends only on that node's
  row of the operand, so what point t writes back is block t of `affine128` of the whole arrays; the ten blocks cover the
  result.
-/
import proofs.«124180_j8143257993843_1_alg».proof.Proof.Gen.KernelIdeal.Frame
import proofs.«124180_j8143257993843_1_alg».proof.Proof.BlockArith
import proofs.«124180_j8143257993843_1_alg».proof.Proof.LayerSpec
import Idealize.ShloMosaic.Lib.Pipeline.Value

set_option maxRecDepth 16384

noncomputable section

open scoped BigOperators

namespace Cert.Bridge.Region3

open Idealize.ShloMosaic Idealize.ShloMosaic.TcCoe Idealize.ShloMosaic.ValueIdx Idealize.SL.Sem Cert.KernelIdeal Cert.KernelIdeal.Gen Cert.Bridge
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the operand's and the result's row block is the point's number; every other
    block index is 0 (the weights and the bias are staged whole). -/
theorem blockIndex : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0 ∧ win3_3.index t (0 : Fin 2) = t.val ∧ win3_3.index t (1 : Fin 2) = 0 :=
  (by decide +kernel : ∀ t : Fin grid3.N, _)

/-- What point t writes back is block t of `affine128` of the operand, the weights and the bias as the call finds them. -/
theorem flushed_eq (c : Dev nD) (t : Fin cfg3.N) :
    (dat3 V c).flushed 3 t
      = ((cfg3.win 3).blk t).view.read (Elt Ideal) (affine128 (V c main_v46) (V c main_arg6) (V c main_v47)) := by
  show (cfg3.win 3).cut (grid3.coords t) ((dat3 V c).after 3 t) = _
  rw [after3_3]
  unfold out3_3
  rw [View.canon_unit_zero zero2]
  simp only [View.ld_unit_zero (S := S5000x128) zero2, View.ld_unit_zero (S := S128x128) zero2, View.ld_unit_zero (S := S128) zero1]
  obtain ⟨e0, e1, e2, e3, e4, e5, e6⟩ := blockIndex t
  refine funext fun (j : S5000x128.Idx) => ?_
  obtain ⟨p, q, rfl⟩ : ∃ (p : Fin 5000) (q : Fin 128), j = ix2 p q := ⟨j 0, j 1, eq_ix2 j⟩
  show k3_pay1 (iblk3 V c 0 t) (iblk3 V c 1 t) (iblk3 V c 2 t) (ix2 p q)
      = affine128 (V c main_v46) (V c main_arg6) (V c main_v47) (((cfg3.win 3).blk t).view.emb (ix2 p q))
  refine (k3_pay1_apply (iblk3 V c 0 t) (iblk3 V c 1 t) (iblk3 V c 2 t) p q).trans ?_
  unfold affine128 affine128At
  have hx : ∀ k : Fin 128, ((cfg3.win 0).blk t).view.emb (ix2 p k)
      = ix2 (⟨((((cfg3.win 3).blk t).view.emb (ix2 p q)) 0).val, ((((cfg3.win 3).blk t).view.emb (ix2 p q)) 0).isLt⟩ : Fin 50000) k := by
    intro k; funext a; apply Fin.ext
    match a with
    | ⟨0, _⟩ => show win3_0.index t (0 : Fin 2) * 5000 + 1 * p.val = win3_3.index t (0 : Fin 2) * 5000 + 1 * p.val; rw [e0, e5]
    | ⟨1, _⟩ => show win3_0.index t (1 : Fin 2) * 128 + 1 * k.val = k.val; rw [e1]; omega
  have hw : ∀ k : Fin 128, ((cfg3.win 1).blk t).view.emb (ix2 k q)
      = ix2 k (⟨((((cfg3.win 3).blk t).view.emb (ix2 p q)) 1).val, ((((cfg3.win 3).blk t).view.emb (ix2 p q)) 1).isLt⟩ : Fin 128) := by
    intro k; funext a; apply Fin.ext
    match a with
    | ⟨0, _⟩ => show win3_1.index t (0 : Fin 2) * 128 + 1 * k.val = k.val; rw [e2]; omega
    | ⟨1, _⟩ => show win3_1.index t (1 : Fin 2) * 128 + 1 * q.val = win3_3.index t (1 : Fin 2) * 128 + 1 * q.val; rw [e3, e6]
  have hb : ((cfg3.win 2).blk t).view.emb (ix1 q)
      = ix1 (⟨((((cfg3.win 3).blk t).view.emb (ix2 p q)) 1).val, ((((cfg3.win 3).blk t).view.emb (ix2 p q)) 1).isLt⟩ : Fin 128) := by
    funext a; apply Fin.ext
    match a with
    | ⟨0, _⟩ => show win3_2.index t (0 : Fin 1) * 128 + 1 * q.val = win3_3.index t (1 : Fin 2) * 128 + 1 * q.val; rw [e4, e6]
  refine congrArg₂ (· + ·) (Finset.sum_congr rfl fun k _ => congrArg₂ (· * ·) ?_ ?_) ?_
  · show V c main_v46 (((cfg3.win 0).blk t).view.emb (ix2 p k)) = _
    exact congrArg (V c main_v46 : S50000x128.Idx → EReal) (hx k)
  · show V c main_arg6 (((cfg3.win 1).blk t).view.emb (ix2 k q)) = _
    exact congrArg (V c main_arg6 : S128x128.Idx → EReal) (hw k)
  · show V c main_v47 (((cfg3.win 2).blk t).view.emb (ix1 q)) = _
    exact congrArg (V c main_v47 : S128.Idx → EReal) hb

/-- An index of the result is in point t's block iff each coordinate is in the block's range on its axis. -/
theorem mem_blk (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v48).slice (win3_3.rect t)).set ↔ _
  rw [View.set_slice_whole, Rect.mem_set_unit]
  exact Iff.rfl

/-- Every row of the result lies in some point's block: row r in point r / 5000's. -/
theorem covered (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  refine ⟨⟨(i 0).val / 5000, by rw [hN]; omega⟩, flush3_3 _, ?_⟩
  rw [mem_blk]
  obtain ⟨-, -, -, -, -, e5, e6⟩ := blockIndex ⟨(i 0).val / 5000, by rw [hN]; omega⟩
  intro a
  match a with
  | ⟨0, _⟩ =>
    show win3_3.index _ (0 : Fin 2) * 5000 ≤ (i 0).val ∧ (i 0).val < win3_3.index _ (0 : Fin 2) * 5000 + 5000
    rw [e5]; show (i 0).val / 5000 * 5000 ≤ (i 0).val ∧ (i 0).val < (i 0).val / 5000 * 5000 + 5000; omega
  | ⟨1, _⟩ =>
    show win3_3.index _ (1 : Fin 2) * 128 ≤ (i 1).val ∧ (i 1).val < win3_3.index _ (1 : Fin 2) * 128 + 128
    rw [e6]; omega

/-- The result array after the call: `affine128` of the operand, the weights and the bias as the call found them. -/
theorem final (c : Dev nD) :
    (dat3 V c).arrAt 3 cfg3.N = affine128 (V c main_v46) (V c main_arg6) (V c main_v47) :=
  (dat3 V c).arrAt_eq_of_cover 3 _ (fun t _ => flushed_eq V c t) covered

end Cert.Bridge.Region3

end
-- ==== Proof.Region4.lean ====
/-
  Call 4 of the kernel (bias + clamp), from blocks to the whole array.

  Grid point t stages rows 5000·t … 5000·t + 4999 of its [50000, 128] operand and the whole bias row, and writes back the
  same rows of its result.  A node's row of `shiftClamp` depends only on that node's row of the operand, so what point t
  writes back is block t of `shiftClamp` of the whole arrays; the ten blocks cover the result.
-/
import proofs.«124180_j8143257993843_1_alg».proof.Proof.Gen.KernelIdeal.Frame
import proofs.«124180_j8143257993843_1_alg».proof.Proof.BlockArith
import proofs.«124180_j8143257993843_1_alg».proof.Proof.LayerSpec
import Idealize.ShloMosaic.Lib.Pipeline.Value

set_option maxRecDepth 16384

noncomputable section

namespace Cert.Bridge.Region4

open Idealize.ShloMosaic Idealize.ShloMosaic.TcCoe Idealize.ShloMosaic.ValueIdx Idealize.SL.Sem Cert.KernelIdeal Cert.KernelIdeal.Gen Cert.Bridge
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the operand's and the result's row block is the point's number, the column
    block and the bias row's block are 0. -/
theorem blockIndex : ∀ t : Fin cfg4.N, win4_0.index t (0 : Fin 2) = t.val ∧ win4_0.index t (1 : Fin 2) = 0
    ∧ win4_1.index t (0 : Fin 1) = 0 ∧ win4_2.index t (0 : Fin 2) = t.val ∧ win4_2.index t (1 : Fin 2) = 0 :=
  (by decide +kernel : ∀ t : Fin grid4.N, _)

/-- What point t writes back is block t of `shiftClamp` of the operand array and the bias as the call finds them. -/
theorem flushed_eq (c : Dev nD) (t : Fin cfg4.N) :
    (dat4 V c).flushed 2 t
      = ((cfg4.win 2).blk t).view.read (Elt Ideal) (shiftClamp (V c main_v61) (V c main_arg7)) := by
  show (cfg4.win 2).cut (grid4.coords t) ((dat4 V c).after 2 t) = _
  rw [after4_2]
  unfold out4_2
  rw [View.canon_unit_zero zero2]
  simp only [View.ld_unit_zero (S := S5000x128) zero2, View.ld_unit_zero (S := S128) zero1]
  obtain ⟨e0, e1, e2, e3, e4⟩ := blockIndex t
  refine funext fun (j : S5000x128.Idx) => ?_
  obtain ⟨p, q, rfl⟩ : ∃ (p : Fin 5000) (q : Fin 128), j = ix2 p q := ⟨j 0, j 1, eq_ix2 j⟩
  show k4_pay1 (iblk4 V c 0 t) (iblk4 V c 1 t) (ix2 p q)
      = shiftClamp (V c main_v61) (V c main_arg7) (((cfg4.win 2).blk t).view.emb (ix2 p q))
  refine (k4_pay1_apply (iblk4 V c 0 t) (iblk4 V c 1 t) p q).trans ?_
  unfold shiftClamp shiftClampAt
  have hrow : ((cfg4.win 0).blk t).view.emb (ix2 p q)
      = ix2 (⟨((((cfg4.win 2).blk t).view.emb (ix2 p q)) 0).val, ((((cfg4.win 2).blk t).view.emb (ix2 p q)) 0).isLt⟩ : Fin 50000)
          (⟨((((cfg4.win 2).blk t).view.emb (ix2 p q)) 1).val, ((((cfg4.win 2).blk t).view.emb (ix2 p q)) 1).isLt⟩ : Fin 128) := by
    funext a; apply Fin.ext
    match a with
    | ⟨0, _⟩ => show win4_0.index t (0 : Fin 2) * 5000 + 1 * p.val = win4_2.index t (0 : Fin 2) * 5000 + 1 * p.val; rw [e0, e3]
    | ⟨1, _⟩ => show win4_0.index t (1 : Fin 2) * 128 + 1 * q.val = win4_2.index t (1 : Fin 2) * 128 + 1 * q.val; rw [e1, e4]
  have hcol : ((cfg4.win 1).blk t).view.emb (ix1 q)
      = ix1 (⟨((((cfg4.win 2).blk t).view.emb (ix2 p q)) 1).val, ((((cfg4.win 2).blk t).view.emb (ix2 p q)) 1).isLt⟩ : Fin 128) := by
    funext a; apply Fin.ext
    match a with
    | ⟨0, _⟩ => show win4_1.index t (0 : Fin 1) * 128 + 1 * q.val = win4_2.index t (1 : Fin 2) * 128 + 1 * q.val; rw [e2, e4]
  refine congrArg₂ max (congrArg₂ (· + ·) ?_ ?_) rfl
  · show V c main_v61 (((cfg4.win 0).blk t).view.emb (ix2 p q)) = _
    exact congrArg (V c main_v61 : S50000x128.Idx → EReal) hrow
  · show V c main_arg7 (((cfg4.win 1).blk t).view.emb (ix1 q)) = _
    exact congrArg (V c main_arg7 : S128.Idx → EReal) hcol

/-- An index of the result is in point t's block iff each coordinate is in the block's range on its axis. -/
theorem mem_blk (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v62).slice (win4_2.rect t)).set ↔ _
  rw [View.set_slice_whole, Rect.mem_set_unit]
  exact Iff.rfl

/-- Every row of the result lies in some point's block: row r in point r / 5000's. -/
theorem covered (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 10 := N_4
  refine ⟨⟨(i 0).val / 5000, by rw [hN]; omega⟩, flush4_2 _, ?_⟩
  rw [mem_blk]
  obtain ⟨-, -, -, e3, e4⟩ := blockIndex ⟨(i 0).val / 5000, by rw [hN]; omega⟩
  intro a
  match a with
  | ⟨0, _⟩ =>
    show win4_2.index _ (0 : Fin 2) * 5000 ≤ (i 0).val ∧ (i 0).val < win4_2.index _ (0 : Fin 2) * 5000 + 5000
    rw [e3]; show (i 0).val / 5000 * 5000 ≤ (i 0).val ∧ (i 0).val < (i 0).val / 5000 * 5000 + 5000; omega
  | ⟨1, _⟩ =>
    show win4_2.index _ (1 : Fin 2) * 128 ≤ (i 1).val ∧ (i 1).val < win4_2.index _ (1 : Fin 2) * 128 + 128
    rw [e4]; omega

/-- The result array after the call: `shiftClamp` of the operand array and the bias as the call found them. -/
theorem final (c : Dev nD) :
    (dat4 V c).arrAt 2 cfg4.N = shiftClamp (V c main_v61) (V c main_arg7) :=
  (dat4 V c).arrAt_eq_of_cover 2 _ (fun t _ => flushed_eq V c t) covered

end Cert.Bridge.Region4

end
-- ==== Proof.KernelFold.lean ====
/-
  The kernel program's buffer contents, boundary by boundary.

  The program is twelve segments: three stretches of host operations (the graph preamble), then five tensor-core calls
  with a stretch of host operations before each of the last four.  The generated frame names the contents at every
  boundary (W0 at the launch … W12 at the return).  Here each buffer that a later segment reads is followed through the
  boundaries: a call's result array is the layer specification of the arrays the call found (the region theorems); a
  buffer that a segment does not write is as the segment found it.
-/
import proofs.«124180_j8143257993843_1_alg».proof.Proof.Gen.KernelIdeal.Frame
import proofs.«124180_j8143257993843_1_alg».proof.Proof.Region0
import proofs.«124180_j8143257993843_1_alg».proof.Proof.Region1
import proofs.«124180_j8143257993843_1_alg».proof.Proof.Region2
import proofs.«124180_j8143257993843_1_alg».proof.Proof.Region3
import proofs.«124180_j8143257993843_1_alg».proof.Proof.Region4
import proofs.«124180_j8143257993843_1_alg».proof.Proof.LayerSpec
import Idealize.ShloMosaic.PureOps.Ideal
import Idealize.ShloMosaic.Lib.Pipeline.Value

set_option maxRecDepth 16384

noncomputable section

namespace Cert.Bridge.KFold

open Idealize.ShloMosaic Idealize.ShloMosaic.TcCoe Idealize.ShloMosaic.ValueIdx Idealize.ShloMosaic.StableHlo Idealize.SL.Sem
open Cert.KernelIdeal Cert.KernelIdeal.Gen Cert.Bridge

/-- A buffer that no operation of a literal line writes keeps its contents: each operation's written buffer is told
    apart from the reference by deciding the two references different. -/
macro "line_keeps" : tactic =>
  `(tactic| (refine StableHlo.after_of_forall_not_mem _ _ (List.forall_iff_forall_mem.mp ?_)
             simp only [hostOps0, hostOps0_1, hostOps0_2, hostOps1, hostOps2, hostOps3, hostOps4, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## What each stretch of host operations leaves alone -/

theorem preamble_keeps_main_arg0 (W : Valuation τ sig (Elt Ideal)) :
    after (hostOps0_2 (F := Ideal)) (after (hostOps0_1 (F := Ideal)) (after (hostOps0 (F := Ideal)) W)) (Proc.devRef .tc main_arg0) = W (Proc.devRef .tc main_arg0) :=
  calc after (hostOps0_2 (F := Ideal)) (after (hostOps0_1 (F := Ideal)) (after (hostOps0 (F := Ideal)) W)) (Proc.devRef .tc main_arg0)
    _ = after (hostOps0_1 (F := Ideal)) (after (hostOps0 (F := Ideal)) W) (Proc.devRef .tc main_arg0) := by line_keeps
    _ = after (hostOps0 (F := Ideal)) W (Proc.devRef .tc main_arg0) := by line_keeps
    _ = W (Proc.devRef .tc main_arg0) := by line_keeps
theorem preamble_keeps_main_arg2 (W : Valuation τ sig (Elt Ideal)) :
    after (hostOps0_2 (F := Ideal)) (after (hostOps0_1 (F := Ideal)) (after (hostOps0 (F := Ideal)) W)) (Proc.devRef .tc main_arg2) = W (Proc.devRef .tc main_arg2) :=
  calc after (hostOps0_2 (F := Ideal)) (after (hostOps0_1 (F := Ideal)) (after (hostOps0 (F := Ideal)) W)) (Proc.devRef .tc main_arg2)
    _ = after (hostOps0_1 (F := Ideal)) (after (hostOps0 (F := Ideal)) W) (Proc.devRef .tc main_arg2) := by line_keeps
    _ = after (hostOps0 (F := Ideal)) W (Proc.devRef .tc main_arg2) := by line_keeps
    _ = W (Proc.devRef .tc main_arg2) := by line_keeps
theorem preamble_keeps_main_arg3 (W : Valuation τ sig (Elt Ideal)) :
    after (hostOps0_2 (F := Ideal)) (after (hostOps0_1 (F := Ideal)) (after (hostOps0 (F := Ideal)) W)) (Proc.devRef .tc main_arg3) = W (Proc.devRef .tc main_arg3) :=
  calc after (hostOps0_2 (F := Ideal)) (after (hostOps0_1 (F := Ideal)) (after (hostOps0 (F := Ideal)) W)) (Proc.devRef .tc main_arg3)
    _ = after (hostOps0_1 (F := Ideal)) (after (hostOps0 (F := Ideal)) W) (Proc.devRef .tc main_arg3) := by line_keeps
    _ = after (hostOps0 (F := Ideal)) W (Proc.devRef .tc main_arg3) := by line_keeps
    _ = W (Proc.devRef .tc main_arg3) := by line_keeps
theorem preamble_keeps_main_arg4 (W : Valuation τ sig (Elt Ideal)) :
    after (hostOps0_2 (F := Ideal)) (after (hostOps0_1 (F := Ideal)) (after (hostOps0 (F := Ideal)) W)) (Proc.devRef .tc main_arg4) = W (Proc.devRef .tc main_arg4) :=
  calc after (hostOps0_2 (F := Ideal)) (after (hostOps0_1 (F := Ideal)) (after (hostOps0 (F := Ideal)) W)) (Proc.devRef .tc main_arg4)
    _ = after (hostOps0_1 (F := Ideal)) (after (hostOps0 (F := Ideal)) W) (Proc.devRef .tc main_arg4) := by line_keeps
    _ = after (hostOps0 (F := Ideal)) W (Proc.devRef .tc main_arg4) := by line_keeps
    _ = W (Proc.devRef .tc main_arg4) := by line_keeps
theorem preamble_keeps_main_arg5 (W : Valuation τ sig (Elt Ideal)) :
    after (hostOps0_2 (F := Ideal)) (after (hostOps0_1 (F := Ideal)) (after (hostOps0 (F := Ideal)) W)) (Proc.devRef .tc main_arg5) = W (Proc.devRef .tc main_arg5) :=
  calc after (hostOps0_2 (F := Ideal)) (after (hostOps0_1 (F := Ideal)) (after (hostOps0 (F := Ideal)) W)) (Proc.devRef .tc main_arg5)
    _ = after (hostOps0_1 (F := Ideal)) (after (hostOps0 (F := Ideal)) W) (Proc.devRef .tc main_arg5) := by line_keeps
    _ = after (hostOps0 (F := Ideal)) W (Proc.devRef .tc main_arg5) := by line_keeps
    _ = W (Proc.devRef .tc main_arg5) := by line_keeps
theorem preamble_keeps_main_arg6 (W : Valuation τ sig (Elt Ideal)) :
    after (hostOps0_2 (F := Ideal)) (after (hostOps0_1 (F := Ideal)) (after (hostOps0 (F := Ideal)) W)) (Proc.devRef .tc main_arg6) = W (Proc.devRef .tc main_arg6) :=
  calc after (hostOps0_2 (F := Ideal)) (after (hostOps0_1 (F := Ideal)) (after (hostOps0 (F := Ideal)) W)) (Proc.devRef .tc main_arg6)
    _ = after (hostOps0_1 (F := Ideal)) (after (hostOps0 (F := Ideal)) W) (Proc.devRef .tc main_arg6) := by line_keeps
    _ = after (hostOps0 (F := Ideal)) W (Proc.devRef .tc main_arg6) := by line_keeps
    _ = W (Proc.devRef .tc main_arg6) := by line_keeps
theorem preamble_keeps_main_arg7 (W : Valuation τ sig (Elt Ideal)) :
    after (hostOps0_2 (F := Ideal)) (after (hostOps0_1 (F := Ideal)) (after (hostOps0 (F := Ideal)) W)) (Proc.devRef .tc main_arg7) = W (Proc.devRef .tc main_arg7) :=
  calc after (hostOps0_2 (F := Ideal)) (after (hostOps0_1 (F := Ideal)) (after (hostOps0 (F := Ideal)) W)) (Proc.devRef .tc main_arg7)
    _ = after (hostOps0_1 (F := Ideal)) (after (hostOps0 (F := Ideal)) W) (Proc.devRef .tc main_arg7) := by line_keeps
    _ = after (hostOps0 (F := Ideal)) W (Proc.devRef .tc main_arg7) := by line_keeps
    _ = W (Proc.devRef .tc main_arg7) := by line_keeps

theorem hostOps1_keeps_main_v30 (W : Valuation τ sig (Elt Ideal)) :
    after (hostOps1 (F := Ideal)) W (Proc.devRef .tc main_v30) = W (Proc.devRef .tc main_v30) := by line_keeps
theorem hostOps1_keeps_main_v3 (W : Valuation τ sig (Elt Ideal)) :
    after (hostOps1 (F := Ideal)) W (Proc.devRef .tc main_v3) = W (Proc.devRef .tc main_v3) := by line_keeps
theorem hostOps1_keeps_main_v6 (W : Valuation τ sig (Elt Ideal)) :
    after (hostOps1 (F := Ideal)) W (Proc.devRef .tc main_v6) = W (Proc.devRef .tc main_v6) := by line_keeps
theorem hostOps1_keeps_main_v29 (W : Valuation τ sig (Elt Ideal)) :
    after (hostOps1 (F := Ideal)) W (Proc.devRef .tc main_v29) = W (Proc.devRef .tc main_v29) := by line_keeps
theorem hostOps1_keeps_main_arg4 (W : Valuation τ sig (Elt Ideal)) :
    after (hostOps1 (F := Ideal)) W (Proc.devRef .tc main_arg4) = W (Proc.devRef .tc main_arg4) := by line_keeps
theorem hostOps1_keeps_main_arg5 (W : Valuation τ sig (Elt Ideal)) :
    after (hostOps1 (F := Ideal)) W (Proc.devRef .tc main_arg5) = W (Proc.devRef .tc main_arg5) := by line_keeps
theorem hostOps1_keeps_main_arg6 (W : Valuation τ sig (Elt Ideal)) :
    after (hostOps1 (F := Ideal)) W (Proc.devRef .tc main_arg6) = W (Proc.devRef .tc main_arg6) := by line_keeps
theorem hostOps1_keeps_main_arg7 (W : Valuation τ sig (Elt Ideal)) :
    after (hostOps1 (F := Ideal)) W (Proc.devRef .tc main_arg7) = W (Proc.devRef .tc main_arg7) := by line_keeps

theorem hostOps2_keeps_main_v3 (W : Valuation τ sig (Elt Ideal)) :
    after (hostOps2 (F := Ideal)) W (Proc.devRef .tc main_v3) = W (Proc.devRef .tc main_v3) := by line_keeps
theorem hostOps2_keeps_main_v6 (W : Valuation τ sig (Elt Ideal)) :
    after (hostOps2 (F := Ideal)) W (Proc.devRef .tc main_v6) = W (Proc.devRef .tc main_v6) := by line_keeps
theorem hostOps2_keeps_main_v29 (W : Valuation τ sig (Elt Ideal)) :
    after (hostOps2 (F := Ideal)) W (Proc.devRef .tc main_v29) = W (Proc.devRef .tc main_v29) := by line_keeps
theorem hostOps2_keeps_main_arg5 (W : Valuation τ sig (Elt Ideal)) :
    after (hostOps2 (F := Ideal)) W (Proc.devRef .tc main_arg5) = W (Proc.devRef .tc main_arg5) := by line_keeps
theorem hostOps2_keeps_main_arg6 (W : Valuation τ sig (Elt Ideal)) :
    after (hostOps2 (F := Ideal)) W (Proc.devRef .tc main_arg6) = W (Proc.devRef .tc main_arg6) := by line_keeps
theorem hostOps2_keeps_main_arg7 (W : Valuation τ sig (Elt Ideal)) :
    after (hostOps2 (F := Ideal)) W (Proc.devRef .tc main_arg7) = W (Proc.devRef .tc main_arg7) := by line_keeps

theorem hostOps3_keeps_main_v46 (W : Valuation τ sig (Elt Ideal)) :
    after (hostOps3 (F := Ideal)) W (Proc.devRef .tc main_v46) = W (Proc.devRef .tc main_v46) := by line_keeps
theorem hostOps3_keeps_main_v3 (W : Valuation τ sig (Elt Ideal)) :
    after (hostOps3 (F := Ideal)) W (Proc.devRef .tc main_v3) = W (Proc.devRef .tc main_v3) := by line_keeps
theorem hostOps3_keeps_main_v6 (W : Valuation τ sig (Elt Ideal)) :
    after (hostOps3 (F := Ideal)) W (Proc.devRef .tc main_v6) = W (Proc.devRef .tc main_v6) := by line_keeps
theorem hostOps3_keeps_main_v29 (W : Valuation τ sig (Elt Ideal)) :
    after (hostOps3 (F := Ideal)) W (Proc.devRef .tc main_v29) = W (Proc.devRef .tc main_v29) := by line_keeps
theorem hostOps3_keeps_main_arg6 (W : Valuation τ sig (Elt Ideal)) :
    after (hostOps3 (F := Ideal)) W (Proc.devRef .tc main_arg6) = W (Proc.devRef .tc main_arg6) := by line_keeps
theorem hostOps3_keeps_main_arg7 (W : Valuation τ sig (Elt Ideal)) :
    after (hostOps3 (F := Ideal)) W (Proc.devRef .tc main_arg7) = W (Proc.devRef .tc main_arg7) := by line_keeps

theorem hostOps4_keeps_main_arg7 (W : Valuation τ sig (Elt Ideal)) :
    after (hostOps4 (F := Ideal)) W (Proc.devRef .tc main_arg7) = W (Proc.devRef .tc main_arg7) := by line_keeps

/-! ## The zero bias row the two convolutions' linear calls are given -/

set_option maxHeartbeats 2000000 in
/-- The first convolution's linear call is given a bias row that the host fills with the float zero. -/
theorem zeroRow1 (W : Valuation τ sig (Elt Ideal)) (q : Fin 128) :
    (after (hostOps1 (F := Ideal)) W (Proc.devRef .tc main_v31) : FVec Ideal S128 .f32) (ix1 q) = (0 : EReal) := by
  dsimp only [hostOps1]
  after_results
  exact (broadcastInDim_apply _ bcast_S_S128 _ (ix1 q) ix0 (fun a => a.elim0)).trans Ideal.ofBits_zero_f32

set_option maxHeartbeats 2000000 in
/-- So is the second convolution's. -/
theorem zeroRow3 (W : Valuation τ sig (Elt Ideal)) (q : Fin 128) :
    (after (hostOps3 (F := Ideal)) W (Proc.devRef .tc main_v47) : FVec Ideal S128 .f32) (ix1 q) = (0 : EReal) := by
  dsimp only [hostOps3]
  after_results
  exact (broadcastInDim_apply _ bcast_S_S128 _ (ix1 q) ix0 (fun a => a.elim0)).trans Ideal.ofBits_zero_f32

/-! ## The boundaries -/

variable (m : (ℓ : Loc nD τ sig) → Buf (Elt Ideal) ℓ) (ρ : Dev nD → PrngReg) (c : Dev nD)

/-- At the first call's entry argument 0 is as launched. -/
theorem W3_main_arg0 : W3 m ρ c (Proc.devRef .tc main_arg0) = m ((c : Thread nD τ).loc main_arg0) :=
  preamble_keeps_main_arg0 (W0 m ρ c)
/-- At the first call's entry argument 2 is as launched. -/
theorem W3_main_arg2 : W3 m ρ c (Proc.devRef .tc main_arg2) = m ((c : Thread nD τ).loc main_arg2) :=
  preamble_keeps_main_arg2 (W0 m ρ c)
/-- At the first call's entry argument 3 is as launched. -/
theorem W3_main_arg3 : W3 m ρ c (Proc.devRef .tc main_arg3) = m ((c : Thread nD τ).loc main_arg3) :=
  preamble_keeps_main_arg3 (W0 m ρ c)
/-- At the first call's entry argument 4 is as launched. -/
theorem W3_main_arg4 : W3 m ρ c (Proc.devRef .tc main_arg4) = m ((c : Thread nD τ).loc main_arg4) :=
  preamble_keeps_main_arg4 (W0 m ρ c)
/-- At the first call's entry argument 5 is as launched. -/
theorem W3_main_arg5 : W3 m ρ c (Proc.devRef .tc main_arg5) = m ((c : Thread nD τ).loc main_arg5) :=
  preamble_keeps_main_arg5 (W0 m ρ c)
/-- At the first call's entry argument 6 is as launched. -/
theorem W3_main_arg6 : W3 m ρ c (Proc.devRef .tc main_arg6) = m ((c : Thread nD τ).loc main_arg6) :=
  preamble_keeps_main_arg6 (W0 m ρ c)
/-- At the first call's entry argument 7 is as launched. -/
theorem W3_main_arg7 : W3 m ρ c (Proc.devRef .tc main_arg7) = m ((c : Thread nD τ).loc main_arg7) :=
  preamble_keeps_main_arg7 (W0 m ρ c)

/-- The input layer's call leaves `affine64` of the launch arrays x, w_in, b_in in its result. -/
theorem W4_main_v30 : (W4 m ρ c (Proc.devRef .tc main_v30) : FVec Ideal S50000x128 .f32)
    = affine64 (m ((c : Thread nD τ).loc main_arg0)) (m ((c : Thread nD τ).loc main_arg2)) (m ((c : Thread nD τ).loc main_arg3)) :=
  ((W4_arr m ρ c 3).trans (Region0.final (V3 m ρ) c)).trans
    (congr (congr (congrArg affine64 (W3_main_arg0 m ρ c)) (W3_main_arg2 m ρ c)) (W3_main_arg3 m ρ c))

/-- `main_v3` is untouched from the first call's entry to the first aggregation's entry … -/
theorem W6_main_v3 : W6 m ρ c (Proc.devRef .tc main_v3) = W3 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := hostOps1_keeps_main_v3 (W4 m ρ c)
    _ = W3 m ρ c (Proc.devRef .tc main_v3) := W4_of_ne m ρ c main_v3 (by decide)
/-- … and on to the second aggregation's entry. -/
theorem W10_main_v3 : W10 m ρ c (Proc.devRef .tc main_v3) = W3 m ρ c (Proc.devRef .tc main_v3) :=
  (calc W10 m ρ c (Proc.devRef .tc main_v3)
    _ = W9 m ρ c (Proc.devRef .tc main_v3) := W10_of_ne m ρ c main_v3 (by decide)
    _ = W8 m ρ c (Proc.devRef .tc main_v3) := hostOps3_keeps_main_v3 (W8 m ρ c)
    _ = W7 m ρ c (Proc.devRef .tc main_v3) := W8_of_ne m ρ c main_v3 (by decide)
    _ = W6 m ρ c (Proc.devRef .tc main_v3) := hostOps2_keeps_main_v3 (W6 m ρ c)).trans (W6_main_v3 m ρ c)

/-- `main_v6` is untouched from the first call's entry to the first aggregation's entry … -/
theorem W6_main_v6 : W6 m ρ c (Proc.devRef .tc main_v6) = W3 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := hostOps1_keeps_main_v6 (W4 m ρ c)
    _ = W3 m ρ c (Proc.devRef .tc main_v6) := W4_of_ne m ρ c main_v6 (by decide)
/-- … and on to the second aggregation's entry. -/
theorem W10_main_v6 : W10 m ρ c (Proc.devRef .tc main_v6) = W3 m ρ c (Proc.devRef .tc main_v6) :=
  (calc W10 m ρ c (Proc.devRef .tc main_v6)
    _ = W9 m ρ c (Proc.devRef .tc main_v6) := W10_of_ne m ρ c main_v6 (by decide)
    _ = W8 m ρ c (Proc.devRef .tc main_v6) := hostOps3_keeps_main_v6 (W8 m ρ c)
    _ = W7 m ρ c (Proc.devRef .tc main_v6) := W8_of_ne m ρ c main_v6 (by decide)
    _ = W6 m ρ c (Proc.devRef .tc main_v6) := hostOps2_keeps_main_v6 (W6 m ρ c)).trans (W6_main_v6 m ρ c)

/-- `main_v29` is untouched from the first call's entry to the first aggregation's entry … -/
theorem W6_main_v29 : W6 m ρ c (Proc.devRef .tc main_v29) = W3 m ρ c (Proc.devRef .tc main_v29) :=
  calc W6 m ρ c (Proc.devRef .tc main_v29)
    _ = W5 m ρ c (Proc.devRef .tc main_v29) := W6_of_ne m ρ c main_v29 (by decide)
    _ = W4 m ρ c (Proc.devRef .tc main_v29) := hostOps1_keeps_main_v29 (W4 m ρ c)
    _ = W3 m ρ c (Proc.devRef .tc main_v29) := W4_of_ne m ρ c main_v29 (by decide)
/-- … and on to the second aggregation's entry. -/
theorem W10_main_v29 : W10 m ρ c (Proc.devRef .tc main_v29) = W3 m ρ c (Proc.devRef .tc main_v29) :=
  (calc W10 m ρ c (Proc.devRef .tc main_v29)
    _ = W9 m ρ c (Proc.devRef .tc main_v29) := W10_of_ne m ρ c main_v29 (by decide)
    _ = W8 m ρ c (Proc.devRef .tc main_v29) := hostOps3_keeps_main_v29 (W8 m ρ c)
    _ = W7 m ρ c (Proc.devRef .tc main_v29) := W8_of_ne m ρ c main_v29 (by decide)
    _ = W6 m ρ c (Proc.devRef .tc main_v29) := hostOps2_keeps_main_v29 (W6 m ρ c)).trans (W6_main_v29 m ρ c)

/-- Argument 4 is as launched where its call reads it. -/
theorem W5_main_arg4 : W5 m ρ c (Proc.devRef .tc main_arg4) = m ((c : Thread nD τ).loc main_arg4) :=
  (calc W5 m ρ c (Proc.devRef .tc main_arg4)
    _ = W4 m ρ c (Proc.devRef .tc main_arg4) := hostOps1_keeps_main_arg4 (W4 m ρ c)
    _ = W3 m ρ c (Proc.devRef .tc main_arg4) := W4_of_ne m ρ c main_arg4 (by decide)).trans (W3_main_arg4 m ρ c)

/-- Argument 5 is as launched where its call reads it. -/
theorem W7_main_arg5 : W7 m ρ c (Proc.devRef .tc main_arg5) = m ((c : Thread nD τ).loc main_arg5) :=
  (calc W7 m ρ c (Proc.devRef .tc main_arg5)
    _ = W6 m ρ c (Proc.devRef .tc main_arg5) := hostOps2_keeps_main_arg5 (W6 m ρ c)
    _ = W5 m ρ c (Proc.devRef .tc main_arg5) := W6_of_ne m ρ c main_arg5 (by decide)
    _ = W4 m ρ c (Proc.devRef .tc main_arg5) := hostOps1_keeps_main_arg5 (W4 m ρ c)
    _ = W3 m ρ c (Proc.devRef .tc main_arg5) := W4_of_ne m ρ c main_arg5 (by decide)).trans (W3_main_arg5 m ρ c)

/-- Argument 6 is as launched where its call reads it. -/
theorem W9_main_arg6 : W9 m ρ c (Proc.devRef .tc main_arg6) = m ((c : Thread nD τ).loc main_arg6) :=
  (calc W9 m ρ c (Proc.devRef .tc main_arg6)
    _ = W8 m ρ c (Proc.devRef .tc main_arg6) := hostOps3_keeps_main_arg6 (W8 m ρ c)
    _ = W7 m ρ c (Proc.devRef .tc main_arg6) := W8_of_ne m ρ c main_arg6 (by decide)
    _ = W6 m ρ c (Proc.devRef .tc main_arg6) := hostOps2_keeps_main_arg6 (W6 m ρ c)
    _ = W5 m ρ c (Proc.devRef .tc main_arg6) := W6_of_ne m ρ c main_arg6 (by decide)
    _ = W4 m ρ c (Proc.devRef .tc main_arg6) := hostOps1_keeps_main_arg6 (W4 m ρ c)
    _ = W3 m ρ c (Proc.devRef .tc main_arg6) := W4_of_ne m ρ c main_arg6 (by decide)).trans (W3_main_arg6 m ρ c)

/-- Argument 7 is as launched where its call reads it. -/
theorem W11_main_arg7 : W11 m ρ c (Proc.devRef .tc main_arg7) = m ((c : Thread nD τ).loc main_arg7) :=
  (calc W11 m ρ c (Proc.devRef .tc main_arg7)
    _ = W10 m ρ c (Proc.devRef .tc main_arg7) := hostOps4_keeps_main_arg7 (W10 m ρ c)
    _ = W9 m ρ c (Proc.devRef .tc main_arg7) := W10_of_ne m ρ c main_arg7 (by decide)
    _ = W8 m ρ c (Proc.devRef .tc main_arg7) := hostOps3_keeps_main_arg7 (W8 m ρ c)
    _ = W7 m ρ c (Proc.devRef .tc main_arg7) := W8_of_ne m ρ c main_arg7 (by decide)
    _ = W6 m ρ c (Proc.devRef .tc main_arg7) := hostOps2_keeps_main_arg7 (W6 m ρ c)
    _ = W5 m ρ c (Proc.devRef .tc main_arg7) := W6_of_ne m ρ c main_arg7 (by decide)
    _ = W4 m ρ c (Proc.devRef .tc main_arg7) := hostOps1_keeps_main_arg7 (W4 m ρ c)
    _ = W3 m ρ c (Proc.devRef .tc main_arg7) := W4_of_ne m ρ c main_arg7 (by decide)).trans (W3_main_arg7 m ρ c)

/-- The first convolution's linear call leaves `affine128` of the input layer's result, w_conv1 and the zero row. -/
theorem W6_main_v32 : (W6 m ρ c (Proc.devRef .tc main_v32) : FVec Ideal S50000x128 .f32)
    = affine128 (affine64 (m ((c : Thread nD τ).loc main_arg0)) (m ((c : Thread nD τ).loc main_arg2)) (m ((c : Thread nD τ).loc main_arg3)))
        (m ((c : Thread nD τ).loc main_arg4)) (W5 m ρ c (Proc.devRef .tc main_v31)) :=
  ((W6_arr m ρ c 3).trans (Region1.final (V5 m ρ) c)).trans
    (congrFun (congr (congrArg affine128 ((hostOps1_keeps_main_v30 (W4 m ρ c)).trans (W4_main_v30 m ρ c))) (W5_main_arg4 m ρ c)) _)

/-- The first convolution's closing call leaves `shiftClamp` of the first aggregation and b_conv1. -/
theorem W8_main_v46 : (W8 m ρ c (Proc.devRef .tc main_v46) : FVec Ideal S50000x128 .f32)
    = shiftClamp (W7 m ρ c (Proc.devRef .tc main_v45)) (m ((c : Thread nD τ).loc main_arg5)) :=
  ((W8_arr m ρ c 2).trans (Region2.final (V7 m ρ) c)).trans (congrArg (shiftClamp _) (W7_main_arg5 m ρ c))

/-- The second convolution's linear call leaves `affine128` of the first convolution's result, w_conv2 and the zero row. -/
theorem W10_main_v48 : (W10 m ρ c (Proc.devRef .tc main_v48) : FVec Ideal S50000x128 .f32)
    = affine128 (W8 m ρ c (Proc.devRef .tc main_v46)) (m ((c : Thread nD τ).loc main_arg6)) (W9 m ρ c (Proc.devRef .tc main_v47)) :=
  ((W10_arr m ρ c 3).trans (Region3.final (V9 m ρ) c)).trans
    (congrFun (congr (congrArg affine128 (hostOps3_keeps_main_v46 (W8 m ρ c))) (W9_main_arg6 m ρ c)) _)

/-- The second convolution's closing call leaves `shiftClamp` of the second aggregation and b_conv2: the result. -/
theorem W12_main_v62 : (W12 m ρ c (Proc.devRef .tc main_v62) : FVec Ideal S50000x128 .f32)
    = shiftClamp (W11 m ρ c (Proc.devRef .tc main_v61)) (m ((c : Thread nD τ).loc main_arg7)) :=
  ((W12_arr m ρ c 2).trans (Region4.final (V11 m ρ) c)).trans (congrArg (shiftClamp _) (W11_main_arg7 m ρ c))

end Cert.Bridge.KFold

end
-- ==== Proof.LibHostFold.lean ====
/-
  A general fact about straight lines of host operations: the contents after two lines run one after the other are
  the contents after the second, started from the contents after the first. It lets a long line be read a stretch at a
  time, each stretch at whatever contents the earlier ones left.
-/
import Idealize.ShloMosaic.Lib.StableHlo.Run

namespace Idealize.ShloMosaic.StableHlo

variable {τ : Topo} {sig : RefSig} {Val : EltTy → Type}

/-- The fold of the operations' results over a concatenation is the fold over the second part of the fold over the
    first. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Idealize.ShloMosaic.StableHlo
-- ==== Proof.RefStretches.lean ====
/-
  The reference's 90 host operations cut into six consecutive stretches:

  * the graph preamble (operations 1 … 40): self-loops appended to the edge list, the in-degree of every node, its
    inverse square root where positive, and the per-edge normalisation (the product of the two end-points' factors);
  * the input layer and the first convolution's matrix product (5 operations);
  * the first aggregation: gather the rows of the edge sources, scale by the normalisation, add into the rows of the edge
    destinations (16 operations);
  * the first convolution's bias and clamp, and the second convolution's matrix product (7 operations);
  * the second aggregation (16 operations);
  * the second convolution's bias and clamp (6 operations).

  The contents after the whole line are the contents after the last stretch, started from the contents after the one
  before it, and so on back to the launch.
-/
import proofs.«124180_j8143257993843_1_alg».proof.Proof.RefOps
import proofs.«124180_j8143257993843_1_alg».proof.Proof.LibHostFold

noncomputable section

namespace Cert.ReferenceIdeal.Stretch

open Cert.ReferenceIdeal Cert.ReferenceIdeal.Gen Idealize.ShloMosaic Idealize.ShloMosaic.TcCoe Idealize.SL.Sem Idealize.ShloMosaic.StableHlo

variable {F : FTy → Type} [FloatOps F]

/-- Operations 1 … 40: the edge lists with self-loops, the degrees and the per-edge normalisation. -/
abbrev preamble : List (HloOp τ sig (Elt F)) :=
  [ nullary main_v0 (iotaInDim S50000 32 0),
        unary main_arg1 main_v1 ((extractStridedSlice S1x600000 ![0, 0] · slices_S2x600000_S1x600000_0_0) : (⟨S2x600000, .i32⟩ : BufTy).Contents (Elt F) → (⟨S1x600000, .i32⟩ : BufTy).Contents (Elt F)),
        reshape main_v1 main_v2 rfl shapeCasts_S1x600000_S600000,
        binary main_v2 main_v0 main_v3 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
        unary main_arg1 main_v4 ((extractStridedSlice S1x600000 ![1, 0] · slices_S2x600000_S1x600000_1_0) : (⟨S2x600000, .i32⟩ : BufTy).Contents (Elt F) → (⟨S1x600000, .i32⟩ : BufTy).Contents (Elt F)),
        reshape main_v4 main_v5 rfl shapeCasts_S1x600000_S600000,
        binary main_v5 main_v0 main_v6 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
        nullary main_cst (constant S_ .f32 0x3F800000#32),
        unary main_cst main_v7 (broadcastInDim S650000 ![] bcast_S_S650000 : (⟨S_, .f32⟩ : BufTy).Contents (Elt F) → (⟨S650000, .f32⟩ : BufTy).Contents (Elt F)),
        nullary main_cst_0 (constant S_ .f32 0x00000000#32),
        unary main_cst_0 main_v8 (broadcastInDim S50000 ![] bcast_S_S50000 : (⟨S_, .f32⟩ : BufTy).Contents (Elt F) → (⟨S50000, .f32⟩ : BufTy).Contents (Elt F)),
        unary main_v6 main_v9 (broadcastInDim S650000x1 ![0] bcast_S650000_S650000x1_0 : (⟨S650000, .i32⟩ : BufTy).Contents (Elt F) → (⟨S650000x1, .i32⟩ : BufTy).Contents (Elt F)),
        ternary main_v8 main_v9 main_v7 main_v10 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
        nullary main_cst_1 (constant S_ .f32 0x00000000#32),
        unary main_cst_1 main_v11 (broadcastInDim S50000 ![] bcast_S_S50000 : (⟨S_, .f32⟩ : BufTy).Contents (Elt F) → (⟨S50000, .f32⟩ : BufTy).Contents (Elt F)),
        binary main_v10 main_v11 main_v12 (cmpf .ogt : (⟨S50000, .f32⟩ : BufTy).Contents (Elt F) → (⟨S50000, .f32⟩ : BufTy).Contents (Elt F) → (⟨S50000, .i1⟩ : BufTy).Contents (Elt F)),
        unary main_v10 main_v13 (Host.rsqrt : (⟨S50000, .f32⟩ : BufTy).Contents (Elt F) → (⟨S50000, .f32⟩ : BufTy).Contents (Elt F)),
        nullary main_cst_2 (constant S_ .f32 0x00000000#32),
        TRef.unary (TRef.of (T := ⟨S_, .f32⟩) main_cst_2) (TRef.of (T := ⟨S_, .f32⟩) main_call0_v0) id,
        TRef.unary (TRef.of (T := ⟨S_, .f32⟩) main_call0_v0) (TRef.of (T := ⟨S50000, .f32⟩) main_call0_v1) (broadcastInDim S50000 ![] bcast_S_S50000),
        TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
        nullary main_c (constantI S_ 32 0#32),
        unary main_c main_v15 (broadcastInDim S650000 ![] bcast_S_S650000 : (⟨S_, .i32⟩ : BufTy).Contents (Elt F) → (⟨S650000, .i32⟩ : BufTy).Contents (Elt F)),
        binary main_v3 main_v15 main_v16 (cmpi .slt : (⟨S650000, .i32⟩ : BufTy).Contents (Elt F) → (⟨S650000, .i32⟩ : BufTy).Contents (Elt F) → (⟨S650000, .i1⟩ : BufTy).Contents (Elt F)),
        nullary main_c_3 (constantI S_ 32 50000#32),
        unary main_c_3 main_v17 (broadcastInDim S650000 ![] bcast_S_S650000 : (⟨S_, .i32⟩ : BufTy).Contents (Elt F) → (⟨S650000, .i32⟩ : BufTy).Contents (Elt F)),
        binary main_v3 main_v17 main_v18 (addi : (⟨S650000, .i32⟩ : BufTy).Contents (Elt F) → (⟨S650000, .i32⟩ : BufTy).Contents (Elt F) → (⟨S650000, .i32⟩ : BufTy).Contents (Elt F)),
        ternary main_v16 main_v18 main_v3 main_v19 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
        unary main_v19 main_v20 (broadcastInDim S650000x1 ![0] bcast_S650000_S650000x1_0 : (⟨S650000, .i32⟩ : BufTy).Contents (Elt F) → (⟨S650000x1, .i32⟩ : BufTy).Contents (Elt F)),
        binary main_v14 main_v20 main_v21 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
        nullary main_c_4 (constantI S_ 32 0#32),
        unary main_c_4 main_v22 (broadcastInDim S650000 ![] bcast_S_S650000 : (⟨S_, .i32⟩ : BufTy).Contents (Elt F) → (⟨S650000, .i32⟩ : BufTy).Contents (Elt F)),
        binary main_v6 main_v22 main_v23 (cmpi .slt : (⟨S650000, .i32⟩ : BufTy).Contents (Elt F) → (⟨S650000, .i32⟩ : BufTy).Contents (Elt F) → (⟨S650000, .i1⟩ : BufTy).Contents (Elt F)),
        nullary main_c_5 (constantI S_ 32 50000#32),
        unary main_c_5 main_v24 (broadcastInDim S650000 ![] bcast_S_S650000 : (⟨S_, .i32⟩ : BufTy).Contents (Elt F) → (⟨S650000, .i32⟩ : BufTy).Contents (Elt F)),
        binary main_v6 main_v24 main_v25 (addi : (⟨S650000, .i32⟩ : BufTy).Contents (Elt F) → (⟨S650000, .i32⟩ : BufTy).Contents (Elt F) → (⟨S650000, .i32⟩ : BufTy).Contents (Elt F)),
        ternary main_v23 main_v25 main_v6 main_v26 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
        unary main_v26 main_v27 (broadcastInDim S650000x1 ![0] bcast_S650000_S650000x1_0 : (⟨S650000, .i32⟩ : BufTy).Contents (Elt F) → (⟨S650000x1, .i32⟩ : BufTy).Contents (Elt F)),
        binary main_v14 main_v27 main_v28 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
        binary main_v21 main_v28 main_v29 (mulf : (⟨S650000, .f32⟩ : BufTy).Contents (Elt F) → (⟨S650000, .f32⟩ : BufTy).Contents (Elt F) → (⟨S650000, .f32⟩ : BufTy).Contents (Elt F)) ]

/-- Operations 41 … 45: x·w_in + b_in, then its product with the first convolution's weights. -/
abbrev inputLayer : List (HloOp τ sig (Elt F)) :=
  [     binary main_arg0 main_arg2 main_v30 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
        unary main_arg3 main_v31 (broadcastInDim S1x128 ![1] bcast_S128_S1x128_1 : (⟨S128, .f32⟩ : BufTy).Contents (Elt F) → (⟨S1x128, .f32⟩ : BufTy).Contents (Elt F)),
        unary main_v31 main_v32 (broadcastInDim S50000x128 ![0, 1] bcast_S1x128_S50000x128_0_1 : (⟨S1x128, .f32⟩ : BufTy).Contents (Elt F) → (⟨S50000x128, .f32⟩ : BufTy).Contents (Elt F)),
        binary main_v30 main_v32 main_v33 (addf : (⟨S50000x128, .f32⟩ : BufTy).Contents (Elt F) → (⟨S50000x128, .f32⟩ : BufTy).Contents (Elt F) → (⟨S50000x128, .f32⟩ : BufTy).Contents (Elt F)),
        binary main_v33 main_arg4 main_v34 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- Operations 46 … 61: gather, scale and scatter-add along the edges (first convolution). -/
abbrev aggregate1 : List (HloOp τ sig (Elt F)) :=
  [     nullary main_c_6 (constantI S_ 32 0#32),
        unary main_c_6 main_v35 (broadcastInDim S650000 ![] bcast_S_S650000 : (⟨S_, .i32⟩ : BufTy).Contents (Elt F) → (⟨S650000, .i32⟩ : BufTy).Contents (Elt F)),
        binary main_v3 main_v35 main_v36 (cmpi .slt : (⟨S650000, .i32⟩ : BufTy).Contents (Elt F) → (⟨S650000, .i32⟩ : BufTy).Contents (Elt F) → (⟨S650000, .i1⟩ : BufTy).Contents (Elt F)),
        nullary main_c_7 (constantI S_ 32 50000#32),
        unary main_c_7 main_v37 (broadcastInDim S650000 ![] bcast_S_S650000 : (⟨S_, .i32⟩ : BufTy).Contents (Elt F) → (⟨S650000, .i32⟩ : BufTy).Contents (Elt F)),
        binary main_v3 main_v37 main_v38 (addi : (⟨S650000, .i32⟩ : BufTy).Contents (Elt F) → (⟨S650000, .i32⟩ : BufTy).Contents (Elt F) → (⟨S650000, .i32⟩ : BufTy).Contents (Elt F)),
        ternary main_v36 main_v38 main_v3 main_v39 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
        unary main_v39 main_v40 (broadcastInDim S650000x1 ![0] bcast_S650000_S650000x1_0 : (⟨S650000, .i32⟩ : BufTy).Contents (Elt F) → (⟨S650000x1, .i32⟩ : BufTy).Contents (Elt F)),
        binary main_v34 main_v40 main_v41 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
        unary main_v29 main_v42 (broadcastInDim S650000x1 ![0] bcast_S650000_S650000x1_0 : (⟨S650000, .f32⟩ : BufTy).Contents (Elt F) → (⟨S650000x1, .f32⟩ : BufTy).Contents (Elt F)),
        unary main_v42 main_v43 (broadcastInDim S650000x128 ![0, 1] bcast_S650000x1_S650000x128_0_1 : (⟨S650000x1, .f32⟩ : BufTy).Contents (Elt F) → (⟨S650000x128, .f32⟩ : BufTy).Contents (Elt F)),
        binary main_v41 main_v43 main_v44 (mulf : (⟨S650000x128, .f32⟩ : BufTy).Contents (Elt F) → (⟨S650000x128, .f32⟩ : BufTy).Contents (Elt F) → (⟨S650000x128, .f32⟩ : BufTy).Contents (Elt F)),
        nullary main_cst_8 (constant S_ .f32 0x00000000#32),
        unary main_cst_8 main_v45 (broadcastInDim S50000x128 ![] bcast_S_S50000x128 : (⟨S_, .f32⟩ : BufTy).Contents (Elt F) → (⟨S50000x128, .f32⟩ : BufTy).Contents (Elt F)),
        unary main_v6 main_v46 (broadcastInDim S650000x1 ![0] bcast_S650000_S650000x1_0 : (⟨S650000, .i32⟩ : BufTy).Contents (Elt F) → (⟨S650000x1, .i32⟩ : BufTy).Contents (Elt F)),
        ternary main_v45 main_v46 main_v44 main_v47 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)) ]

/-- Operations 62 … 68: bias and clamp of the first convolution, then the product with the second's weights. -/
abbrev between : List (HloOp τ sig (Elt F)) :=
  [     unary main_arg5 main_v48 (broadcastInDim S1x128 ![1] bcast_S128_S1x128_1 : (⟨S128, .f32⟩ : BufTy).Contents (Elt F) → (⟨S1x128, .f32⟩ : BufTy).Contents (Elt F)),
        unary main_v48 main_v49 (broadcastInDim S50000x128 ![0, 1] bcast_S1x128_S50000x128_0_1 : (⟨S1x128, .f32⟩ : BufTy).Contents (Elt F) → (⟨S50000x128, .f32⟩ : BufTy).Contents (Elt F)),
        binary main_v47 main_v49 main_v50 (addf : (⟨S50000x128, .f32⟩ : BufTy).Contents (Elt F) → (⟨S50000x128, .f32⟩ : BufTy).Contents (Elt F) → (⟨S50000x128, .f32⟩ : BufTy).Contents (Elt F)),
        TRef.nullary (TRef.of (T := ⟨S_, .f32⟩) main_call1_cst) (constant S_ .f32 0x00000000#32),
        TRef.unary (TRef.of (T := ⟨S_, .f32⟩) main_call1_cst) (TRef.of (T := ⟨S50000x128, .f32⟩) main_call1_v0) (broadcastInDim S50000x128 ![] bcast_S_S50000x128),
        TRef.binary (TRef.of (T := ⟨S50000x128, .f32⟩) main_v50) (TRef.of (T := ⟨S50000x128, .f32⟩) main_call1_v0) (TRef.of (T := ⟨S50000x128, .f32⟩) main_v51) maximumf,
        binary main_v51 main_arg6 main_v52 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- Operations 69 … 84: gather, scale and scatter-add along the edges (second convolution). -/
abbrev aggregate2 : List (HloOp τ sig (Elt F)) :=
  [     nullary main_c_9 (constantI S_ 32 0#32),
        unary main_c_9 main_v53 (broadcastInDim S650000 ![] bcast_S_S650000 : (⟨S_, .i32⟩ : BufTy).Contents (Elt F) → (⟨S650000, .i32⟩ : BufTy).Contents (Elt F)),
        binary main_v3 main_v53 main_v54 (cmpi .slt : (⟨S650000, .i32⟩ : BufTy).Contents (Elt F) → (⟨S650000, .i32⟩ : BufTy).Contents (Elt F) → (⟨S650000, .i1⟩ : BufTy).Contents (Elt F)),
        nullary main_c_10 (constantI S_ 32 50000#32),
        unary main_c_10 main_v55 (broadcastInDim S650000 ![] bcast_S_S650000 : (⟨S_, .i32⟩ : BufTy).Contents (Elt F) → (⟨S650000, .i32⟩ : BufTy).Contents (Elt F)),
        binary main_v3 main_v55 main_v56 (addi : (⟨S650000, .i32⟩ : BufTy).Contents (Elt F) → (⟨S650000, .i32⟩ : BufTy).Contents (Elt F) → (⟨S650000, .i32⟩ : BufTy).Contents (Elt F)),
        ternary main_v54 main_v56 main_v3 main_v57 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
        unary main_v57 main_v58 (broadcastInDim S650000x1 ![0] bcast_S650000_S650000x1_0 : (⟨S650000, .i32⟩ : BufTy).Contents (Elt F) → (⟨S650000x1, .i32⟩ : BufTy).Contents (Elt F)),
        binary main_v52 main_v58 main_v59 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
        unary main_v29 main_v60 (broadcastInDim S650000x1 ![0] bcast_S650000_S650000x1_0 : (⟨S650000, .f32⟩ : BufTy).Contents (Elt F) → (⟨S650000x1, .f32⟩ : BufTy).Contents (Elt F)),
        unary main_v60 main_v61 (broadcastInDim S650000x128 ![0, 1] bcast_S650000x1_S650000x128_0_1 : (⟨S650000x1, .f32⟩ : BufTy).Contents (Elt F) → (⟨S650000x128, .f32⟩ : BufTy).Contents (Elt F)),
        binary main_v59 main_v61 main_v62 (mulf : (⟨S650000x128, .f32⟩ : BufTy).Contents (Elt F) → (⟨S650000x128, .f32⟩ : BufTy).Contents (Elt F) → (⟨S650000x128, .f32⟩ : BufTy).Contents (Elt F)),
        nullary main_cst_11 (constant S_ .f32 0x00000000#32),
        unary main_cst_11 main_v63 (broadcastInDim S50000x128 ![] bcast_S_S50000x128 : (⟨S_, .f32⟩ : BufTy).Contents (Elt F) → (⟨S50000x128, .f32⟩ : BufTy).Contents (Elt F)),
        unary main_v6 main_v64 (broadcastInDim S650000x1 ![0] bcast_S650000_S650000x1_0 : (⟨S650000, .i32⟩ : BufTy).Contents (Elt F) → (⟨S650000x1, .i32⟩ : BufTy).Contents (Elt F)),
        ternary main_v63 main_v64 main_v62 main_v65 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)) ]

/-- Operations 85 … 90: bias and clamp of the second convolution. -/
abbrev lastLayer : List (HloOp τ sig (Elt F)) :=
  [     unary main_arg7 main_v66 (broadcastInDim S1x128 ![1] bcast_S128_S1x128_1 : (⟨S128, .f32⟩ : BufTy).Contents (Elt F) → (⟨S1x128, .f32⟩ : BufTy).Contents (Elt F)),
        unary main_v66 main_v67 (broadcastInDim S50000x128 ![0, 1] bcast_S1x128_S50000x128_0_1 : (⟨S1x128, .f32⟩ : BufTy).Contents (Elt F) → (⟨S50000x128, .f32⟩ : BufTy).Contents (Elt F)),
        binary main_v65 main_v67 main_v68 (addf : (⟨S50000x128, .f32⟩ : BufTy).Contents (Elt F) → (⟨S50000x128, .f32⟩ : BufTy).Contents (Elt F) → (⟨S50000x128, .f32⟩ : BufTy).Contents (Elt F)),
        TRef.nullary (TRef.of (T := ⟨S_, .f32⟩) main_call2_cst) (constant S_ .f32 0x00000000#32),
        TRef.unary (TRef.of (T := ⟨S_, .f32⟩) main_call2_cst) (TRef.of (T := ⟨S50000x128, .f32⟩) main_call2_v0) (broadcastInDim S50000x128 ![] bcast_S_S50000x128),
        TRef.binary (TRef.of (T := ⟨S50000x128, .f32⟩) main_v68) (TRef.of (T := ⟨S50000x128, .f32⟩) main_call2_v0) (TRef.of (T := ⟨S50000x128, .f32⟩) main_v69) maximumf ]

set_option maxRecDepth 8192 in
/-- The line is its six stretches in order. -/
theorem ops_split : (RunP.ops : List (HloOp τ sig (Elt F)))
    = preamble ++ (inputLayer ++ (aggregate1 ++ (between ++ (aggregate2 ++ lastLayer)))) := rfl

/-- The contents after the whole line, stretch by stretch. -/
theorem fold_split (U : Valuation τ sig (Elt F)) :
    after RunP.ops U = after lastLayer (after aggregate2 (after between (after aggregate1 (after inputLayer (after preamble U))))) := by
  rw [ops_split, after_append, after_append, after_append, after_append, after_append]

end Cert.ReferenceIdeal.Stretch

end
-- ==== Proof.GraphStretches.lean ====
/-
  The graph code shared by the two programs, stretch against stretch.

  Both programs build the edge lists with a self-loop per node, the in-degrees, their inverse square roots and the
  per-edge normalisation with the same host operations, and both aggregate along the edges with the same gather, scale
  and scatter-add.  So, from contents that agree on what a stretch reads, the kernel's stretch and the reference's leave
  the same value in the buffer each writes last: both sides are the same composition of the same pure functions, and
  the composition is never opened.
-/
import proofs.«124180_j8143257993843_1_alg».proof.Proof.Gen.KernelIdeal.Launch
import proofs.«124180_j8143257993843_1_alg».proof.Proof.RefStretches
import Idealize.ShloMosaic.PureOps.Ideal

noncomputable section

namespace Cert.Bridge

open Idealize.ShloMosaic Idealize.ShloMosaic.TcCoe Idealize.ShloMosaic.StableHlo Idealize.SL.Sem

/-- Contents of the kernel program's buffers on one device, at the extended reals. -/
abbrev KV := Valuation Cert.KernelIdeal.τ Cert.KernelIdeal.sig (Elt Ideal)
/-- Contents of the reference program's buffers on one device, at the extended reals. -/
abbrev RV := Valuation Cert.ReferenceIdeal.τ Cert.ReferenceIdeal.sig (Elt Ideal)

/-- The rewrite loop of the library's `after_results` without its first unfolding pass: each operation's result at its own
    buffer becomes its function's value, at another buffer what was there. For what one `simp` pass cannot reach (the
    pieces inside a concatenation's list). -/
macro "peel_results" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

/-- The kernel's graph preamble: its three stretches of host operations one after the other. -/
abbrev kPreamble (W : KV) : KV :=
  after (Cert.KernelIdeal.Gen.hostOps0_2 (F := Ideal)) (after (Cert.KernelIdeal.Gen.hostOps0_1 (F := Ideal)) (after (Cert.KernelIdeal.Gen.hostOps0 (F := Ideal)) W))

set_option maxHeartbeats 40000000 in
/-- Edge sources with self-loops: the same array in both programs, from the same edge list. -/
theorem preamble_src (W : KV) (U : RV)
    (he : (W (Proc.devRef .tc Cert.KernelIdeal.main_arg1) : IVec Cert.KernelIdeal.S2x600000 32) = U (Proc.devRef .tc Cert.ReferenceIdeal.main_arg1)) :
    (kPreamble W (Proc.devRef .tc Cert.KernelIdeal.main_v3) : IVec Cert.KernelIdeal.S650000 32)
      = after (Cert.ReferenceIdeal.Stretch.preamble (F := Ideal)) U (Proc.devRef .tc Cert.ReferenceIdeal.main_v3) := by
  dsimp only [kPreamble, Cert.KernelIdeal.Gen.hostOps0, Cert.KernelIdeal.Gen.hostOps0_1, Cert.KernelIdeal.Gen.hostOps0_2, Cert.ReferenceIdeal.Stretch.preamble]
  after_results_simp
  peel_results
  rw [he]
  rfl

set_option maxHeartbeats 40000000 in
/-- Edge destinations with self-loops. -/
theorem preamble_dst (W : KV) (U : RV)
    (he : (W (Proc.devRef .tc Cert.KernelIdeal.main_arg1) : IVec Cert.KernelIdeal.S2x600000 32) = U (Proc.devRef .tc Cert.ReferenceIdeal.main_arg1)) :
    (kPreamble W (Proc.devRef .tc Cert.KernelIdeal.main_v6) : IVec Cert.KernelIdeal.S650000 32)
      = after (Cert.ReferenceIdeal.Stretch.preamble (F := Ideal)) U (Proc.devRef .tc Cert.ReferenceIdeal.main_v6) := by
  dsimp only [kPreamble, Cert.KernelIdeal.Gen.hostOps0, Cert.KernelIdeal.Gen.hostOps0_1, Cert.KernelIdeal.Gen.hostOps0_2, Cert.ReferenceIdeal.Stretch.preamble]
  after_results_simp
  peel_results
  rw [he]
  rfl

set_option maxHeartbeats 80000000 in
/-- The per-edge normalisation. -/
theorem preamble_norm (W : KV) (U : RV)
    (he : (W (Proc.devRef .tc Cert.KernelIdeal.main_arg1) : IVec Cert.KernelIdeal.S2x600000 32) = U (Proc.devRef .tc Cert.ReferenceIdeal.main_arg1)) :
    (kPreamble W (Proc.devRef .tc Cert.KernelIdeal.main_v29) : FVec Ideal Cert.KernelIdeal.S650000 .f32)
      = after (Cert.ReferenceIdeal.Stretch.preamble (F := Ideal)) U (Proc.devRef .tc Cert.ReferenceIdeal.main_v29) := by
  dsimp only [kPreamble, Cert.KernelIdeal.Gen.hostOps0, Cert.KernelIdeal.Gen.hostOps0_1, Cert.KernelIdeal.Gen.hostOps0_2, Cert.ReferenceIdeal.Stretch.preamble]
  after_results_simp
  peel_results
  rw [he]
  rfl

set_option maxHeartbeats 8000000 in
/-- The first aggregation: from the same rows to gather, the same edge lists and the same normalisation, the same sums. -/
theorem aggregate1_sim (W : KV) (U : RV)
    (hh : (W (Proc.devRef .tc Cert.KernelIdeal.main_v32) : FVec Ideal Cert.KernelIdeal.S50000x128 .f32) = U (Proc.devRef .tc Cert.ReferenceIdeal.main_v34))
    (hs : (W (Proc.devRef .tc Cert.KernelIdeal.main_v3) : IVec Cert.KernelIdeal.S650000 32) = U (Proc.devRef .tc Cert.ReferenceIdeal.main_v3))
    (hd : (W (Proc.devRef .tc Cert.KernelIdeal.main_v6) : IVec Cert.KernelIdeal.S650000 32) = U (Proc.devRef .tc Cert.ReferenceIdeal.main_v6))
    (hn : (W (Proc.devRef .tc Cert.KernelIdeal.main_v29) : FVec Ideal Cert.KernelIdeal.S650000 .f32) = U (Proc.devRef .tc Cert.ReferenceIdeal.main_v29)) :
    (after (Cert.KernelIdeal.Gen.hostOps2 (F := Ideal)) W (Proc.devRef .tc Cert.KernelIdeal.main_v45) : FVec Ideal Cert.KernelIdeal.S50000x128 .f32)
      = after (Cert.ReferenceIdeal.Stretch.aggregate1 (F := Ideal)) U (Proc.devRef .tc Cert.ReferenceIdeal.main_v47) := by
  dsimp only [Cert.KernelIdeal.Gen.hostOps2, Cert.ReferenceIdeal.Stretch.aggregate1]
  after_results_simp
  rw [hh, hs, hd, hn]
  rfl

set_option maxHeartbeats 8000000 in
/-- The second aggregation. -/
theorem aggregate2_sim (W : KV) (U : RV)
    (hh : (W (Proc.devRef .tc Cert.KernelIdeal.main_v48) : FVec Ideal Cert.KernelIdeal.S50000x128 .f32) = U (Proc.devRef .tc Cert.ReferenceIdeal.main_v52))
    (hs : (W (Proc.devRef .tc Cert.KernelIdeal.main_v3) : IVec Cert.KernelIdeal.S650000 32) = U (Proc.devRef .tc Cert.ReferenceIdeal.main_v3))
    (hd : (W (Proc.devRef .tc Cert.KernelIdeal.main_v6) : IVec Cert.KernelIdeal.S650000 32) = U (Proc.devRef .tc Cert.ReferenceIdeal.main_v6))
    (hn : (W (Proc.devRef .tc Cert.KernelIdeal.main_v29) : FVec Ideal Cert.KernelIdeal.S650000 .f32) = U (Proc.devRef .tc Cert.ReferenceIdeal.main_v29)) :
    (after (Cert.KernelIdeal.Gen.hostOps4 (F := Ideal)) W (Proc.devRef .tc Cert.KernelIdeal.main_v61) : FVec Ideal Cert.KernelIdeal.S50000x128 .f32)
      = after (Cert.ReferenceIdeal.Stretch.aggregate2 (F := Ideal)) U (Proc.devRef .tc Cert.ReferenceIdeal.main_v65) := by
  dsimp only [Cert.KernelIdeal.Gen.hostOps4, Cert.ReferenceIdeal.Stretch.aggregate2]
  after_results_simp
  rw [hh, hs, hd, hn]
  rfl

end Cert.Bridge

end
-- ==== Proof.RefLayers.lean ====
/-
  The reference's three layer forms, read entry by entry.

  On the host the input layer is a `dot_general` of x with w_in plus the bias broadcast [128] → [1, 128] → [50000, 128];
  a convolution's linear part is a `dot_general` alone; its closing part adds the broadcast bias and takes the maximum
  with a broadcast zero.  Over the extended reals a `dot_general` is the plain sum of products, so these are the layer
  specifications `affine64`, `affine128` (with a bias row that is zero everywhere: a + 0 = a holds for every
  extended real, infinite ones included) and `shiftClamp`.
-/
import proofs.«124180_j8143257993843_1_alg».proof.Proof.Gen.ReferenceIdeal
import proofs.«124180_j8143257993843_1_alg».proof.Proof.LayerSpec
import Idealize.ShloMosaic.Lib.ValueIdx
import Idealize.ShloMosaic.Lib.Pipeline.Value
import Idealize.ShloMosaic.PureOps.Ideal.Laws

noncomputable section

open scoped BigOperators

namespace Cert.Bridge.Ref

open Idealize.ShloMosaic Idealize.ShloMosaic.ValueIdx Cert.ReferenceIdeal Cert.ReferenceIdeal.Gen Cert.Bridge

theorem dot64_lhs0 (j : S50000x128.Idx) (r : dot_S50000x64_S64x128_S50000x128_1_0_0_1_n_n.contr.Idx) : (dot_S50000x64_S64x128_S50000x128_1_0_0_1_n_n.lhsIdx j r 0).val = (j 0).val := by
  unfold DotDims.lhsIdx
  rw [dif_neg (show ¬(0 : Fin S50000x64.rank) ∈ dot_S50000x64_S64x128_S50000x128_1_0_0_1_n_n.lhsBatch by decide),
    dif_pos (show (0 : Fin S50000x64.rank) ∈ dot_S50000x64_S64x128_S50000x128_1_0_0_1_n_n.lhsNonContracting by decide)]
  rfl
theorem dot64_rhs1 (j : S50000x128.Idx) (r : dot_S50000x64_S64x128_S50000x128_1_0_0_1_n_n.contr.Idx) : (dot_S50000x64_S64x128_S50000x128_1_0_0_1_n_n.rhsIdx j r 1).val = (j 1).val := by
  unfold DotDims.rhsIdx
  rw [dif_neg (show ¬(1 : Fin S64x128.rank) ∈ dot_S50000x64_S64x128_S50000x128_1_0_0_1_n_n.rhsBatch by decide),
    dif_pos (show (1 : Fin S64x128.rank) ∈ dot_S50000x64_S64x128_S50000x128_1_0_0_1_n_n.rhsNonContracting by decide)]
  rfl

/-- The host's product at entry `i`: the sum over k of the left operand's row against the right operand's column. -/
theorem dot64_apply (X : FVec Ideal S50000x64 .f32) (W : FVec Ideal S64x128 .f32) (i : S50000x128.Idx) :
    Host.dotGeneral dot_S50000x64_S64x128_S50000x128_1_0_0_1_n_n none X W i
      = ∑ k : Fin 64, X (ix2 (⟨(i 0).val, (i 0).isLt⟩ : Fin 50000) k) * W (ix2 k (⟨(i 1).val, (i 1).isLt⟩ : Fin 128)) := by
  simp only [Host.dotGeneral]
  rw [Ideal.dotGeneral_apply, ← Equiv.sum_comp (contrEquiv1 dot_S50000x64_S64x128_S50000x128_1_0_0_1_n_n 64 rfl rfl).symm]
  refine Finset.sum_congr rfl fun k _ => ?_
  have hk := contrEquiv1_symm_val dot_S50000x64_S64x128_S50000x128_1_0_0_1_n_n 64 rfl rfl k
  have el : dot_S50000x64_S64x128_S50000x128_1_0_0_1_n_n.lhsIdx i ((contrEquiv1 dot_S50000x64_S64x128_S50000x128_1_0_0_1_n_n 64 rfl rfl).symm k)
      = ix2 (⟨(i 0).val, (i 0).isLt⟩ : Fin 50000) k := funext fun a => Fin.ext (by
    match a with
    | ⟨0, _⟩ => exact dot64_lhs0 _ _
    | ⟨1, _⟩ => exact (dot_S50000x64_S64x128_S50000x128_1_0_0_1_n_n.lhsIdx_val_of_single rfl _ _).trans hk)
  have er : dot_S50000x64_S64x128_S50000x128_1_0_0_1_n_n.rhsIdx i ((contrEquiv1 dot_S50000x64_S64x128_S50000x128_1_0_0_1_n_n 64 rfl rfl).symm k)
      = ix2 k (⟨(i 1).val, (i 1).isLt⟩ : Fin 128) := funext fun a => Fin.ext (by
    match a with
    | ⟨0, _⟩ => exact (dot_S50000x64_S64x128_S50000x128_1_0_0_1_n_n.rhsIdx_val_of_single rfl _ _).trans hk
    | ⟨1, _⟩ => exact dot64_rhs1 _ _)
  rw [el, er]

theorem dot128_lhs0 (j : S50000x128.Idx) (r : dot_S50000x128_S128x128_S50000x128_1_0_0_1_n_n.contr.Idx) : (dot_S50000x128_S128x128_S50000x128_1_0_0_1_n_n.lhsIdx j r 0).val = (j 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl
theorem dot128_rhs1 (j : S50000x128.Idx) (r : dot_S50000x128_S128x128_S50000x128_1_0_0_1_n_n.contr.Idx) : (dot_S50000x128_S128x128_S50000x128_1_0_0_1_n_n.rhsIdx j r 1).val = (j 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

/-- The host's product at entry `i`: the sum over k of the left operand's row against the right operand's column. -/
theorem dot128_apply (X : FVec Ideal S50000x128 .f32) (W : FVec Ideal S128x128 .f32) (i : S50000x128.Idx) :
    Host.dotGeneral dot_S50000x128_S128x128_S50000x128_1_0_0_1_n_n none X W i
      = ∑ k : Fin 128, X (ix2 (⟨(i 0).val, (i 0).isLt⟩ : Fin 50000) k) * W (ix2 k (⟨(i 1).val, (i 1).isLt⟩ : Fin 128)) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx i ((contrEquiv1 dot_S50000x128_S128x128_S50000x128_1_0_0_1_n_n 128 rfl rfl).symm k)
      = ix2 (⟨(i 0).val, (i 0).isLt⟩ : Fin 50000) k := funext fun a => Fin.ext (by
    match a with
    | ⟨0, _⟩ => exact dot128_lhs0 _ _
    | ⟨1, _⟩ => exact (dot_S50000x128_S128x128_S50000x128_1_0_0_1_n_n.lhsIdx_val_of_single rfl _ _).trans hk)
  have er : dot_S50000x128_S128x128_S50000x128_1_0_0_1_n_n.rhsIdx i ((contrEquiv1 dot_S50000x128_S128x128_S50000x128_1_0_0_1_n_n 128 rfl rfl).symm k)
      = ix2 k (⟨(i 1).val, (i 1).isLt⟩ : Fin 128) := funext fun a => Fin.ext (by
    match a with
    | ⟨0, _⟩ => exact (dot_S50000x128_S128x128_S50000x128_1_0_0_1_n_n.rhsIdx_val_of_single rfl _ _).trans hk
    | ⟨1, _⟩ => exact dot128_rhs1 _ _)
  rw [el, er]

/-- The bias as the host spreads it, [128] → [1, 128] → [50000, 128]: at entry `i` it reads b at `i`'s column. -/
theorem biasBcast_apply (b : FVec Ideal S128 .f32) (i : S50000x128.Idx) :
    broadcastInDim S50000x128 ![0, 1] bcast_S1x128_S50000x128_0_1 (broadcastInDim S1x128 ![1] bcast_S128_S1x128_1 b) i
      = b (ix1 (⟨(i 1).val, (i 1).isLt⟩ : Fin 128)) := by
  refine (broadcastInDim_apply _ bcast_S1x128_S50000x128_0_1 _ i
    (ix2 (0 : Fin 1) (⟨(i 1).val, (i 1).isLt⟩ : Fin 128)) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])).trans ?_
  exact broadcastInDim_apply _ bcast_S128_S1x128_1 b _ (ix1 (⟨(i 1).val, (i 1).isLt⟩ : Fin 128)) (fun a => match a with
      | ⟨0, _⟩ => by show (i 1).val = if (128 : Nat) = 1 then 0 else (i 1).val; rw [if_neg (by decide)])

/-- An index of a [50000, 128] array is the pair of its coordinates. -/
theorem idx_eq (i : S50000x128.Idx) :
    i = ix2 (⟨(i 0).val, (i 0).isLt⟩ : Fin 50000) (⟨(i 1).val, (i 1).isLt⟩ : Fin 128) := by
  funext a; match a with | ⟨0, _⟩ => rfl | ⟨1, _⟩ => rfl

/-- The input layer on the host is `affine64`. -/
theorem inputLayer_eq (X : FVec Ideal S50000x64 .f32) (W : FVec Ideal S64x128 .f32) (b : FVec Ideal S128 .f32) :
    addf (Host.dotGeneral dot_S50000x64_S64x128_S50000x128_1_0_0_1_n_n none X W)
        (broadcastInDim S50000x128 ![0, 1] bcast_S1x128_S50000x128_0_1 (broadcastInDim S1x128 ![1] bcast_S128_S1x128_1 b))
      = affine64 X W b := by
  funext i
  refine (addf_apply _ _ _).trans ?_
  unfold affine64 affine64At
  exact congrArg₂ (· + ·) (dot64_apply X W i) (biasBcast_apply b i)

/-- A convolution's matrix product on the host is `affine128` with any bias row that is zero everywhere. -/
theorem convProduct_eq (H : FVec Ideal S50000x128 .f32) (W : FVec Ideal S128x128 .f32) (z : FVec Ideal S128 .f32)
    (hz : ∀ q : Fin 128, z (ix1 q) = 0) :
    Host.dotGeneral dot_S50000x128_S128x128_S50000x128_1_0_0_1_n_n none H W = affine128 H W z := by
  funext i
  unfold affine128 affine128At
  rw [hz, add_zero]
  exact dot128_apply H W i

/-- A convolution's closing part on the host — the broadcast bias added, then the maximum with a broadcast zero — is
    `shiftClamp`. -/
theorem closing_eq (A : FVec Ideal S50000x128 .f32) (b : FVec Ideal S128 .f32) :
    maximumf (addf A (broadcastInDim S50000x128 ![0, 1] bcast_S1x128_S50000x128_0_1 (broadcastInDim S1x128 ![1] bcast_S128_S1x128_1 b)))
        (broadcastInDim S50000x128 ![] bcast_S_S50000x128 (constant (F := Ideal) S_ .f32 0x00000000#32))
      = shiftClamp A b := by
  funext i
  refine (maximumf_apply _ _ _).trans ?_
  unfold shiftClamp shiftClampAt
  refine congrArg₂ max ?_ ?_
  · refine (addf_apply _ _ _).trans ?_
    exact congrArg₂ (· + ·) (congrArg A (idx_eq i)) (biasBcast_apply b i)
  · exact broadcastInDim_apply _ bcast_S_S50000x128 _ i ix0 (fun a => a.elim0)

end Cert.Bridge.Ref

end
-- ==== Proof.LibCastBack.lean ====
/-
  A general fact about transport along an equation of types: carrying a value from a type to an equal type and back
  gives the value again, whatever the two types are and however the two equations were obtained. Cancelling such a pair
  this way never has to compare the two types.
-/

/-- A value carried along `h : α = β` and back along any `h' : β = α` is itself. -/
theorem cast_cast_cancel {α β : Sort _} (h : α = β) (h' : β = α) (v : α) : cast h' (cast h v) = v := by
  subst h
  rfl
-- ==== Proof.RefFold.lean ====
/-
  The reference's three stretches that are not graph code, read at the buffer each writes last, and the buffers each
  stretch leaves alone.

  * the input layer's stretch ends at the first convolution's matrix product: (x·w_in + b_in)·w_conv1;
  * the stretch between the aggregations ends at the second convolution's matrix product of max(agg + b_conv1, 0);
  * the last stretch ends at max(agg + b_conv2, 0), the result.

  Each is its operations' composition over whatever contents the stretch starts from.
-/
import proofs.«124180_j8143257993843_1_alg».proof.Proof.RefStretches
import proofs.«124180_j8143257993843_1_alg».proof.Proof.LibCastBack
import Idealize.ShloMosaic.PureOps.Ideal

noncomputable section

namespace Cert.ReferenceIdeal.Stretch

open Cert.ReferenceIdeal Cert.ReferenceIdeal.Gen Idealize.ShloMosaic Idealize.ShloMosaic.TcCoe Idealize.SL.Sem Idealize.ShloMosaic.StableHlo

/-- A buffer that no operation of a literal line writes keeps its contents: each operation's written buffer is told
    apart from the reference by deciding the two references different. -/
macro "line_keeps" : tactic =>
  `(tactic| (refine StableHlo.after_of_forall_not_mem _ _ (List.forall_iff_forall_mem.mp ?_)
             simp only [preamble, inputLayer, aggregate1, between, aggregate2, lastLayer, RunP.ops, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## What each stretch, and the whole line, leaves alone -/

theorem preamble_keeps_main_arg0 (U : Valuation τ sig (Elt Ideal)) :
    after (preamble (F := Ideal)) U (Proc.devRef .tc main_arg0) = U (Proc.devRef .tc main_arg0) := by line_keeps
theorem preamble_keeps_main_arg2 (U : Valuation τ sig (Elt Ideal)) :
    after (preamble (F := Ideal)) U (Proc.devRef .tc main_arg2) = U (Proc.devRef .tc main_arg2) := by line_keeps
theorem preamble_keeps_main_arg3 (U : Valuation τ sig (Elt Ideal)) :
    after (preamble (F := Ideal)) U (Proc.devRef .tc main_arg3) = U (Proc.devRef .tc main_arg3) := by line_keeps
theorem preamble_keeps_main_arg4 (U : Valuation τ sig (Elt Ideal)) :
    after (preamble (F := Ideal)) U (Proc.devRef .tc main_arg4) = U (Proc.devRef .tc main_arg4) := by line_keeps
theorem preamble_keeps_main_arg5 (U : Valuation τ sig (Elt Ideal)) :
    after (preamble (F := Ideal)) U (Proc.devRef .tc main_arg5) = U (Proc.devRef .tc main_arg5) := by line_keeps
theorem preamble_keeps_main_arg6 (U : Valuation τ sig (Elt Ideal)) :
    after (preamble (F := Ideal)) U (Proc.devRef .tc main_arg6) = U (Proc.devRef .tc main_arg6) := by line_keeps
theorem preamble_keeps_main_arg7 (U : Valuation τ sig (Elt Ideal)) :
    after (preamble (F := Ideal)) U (Proc.devRef .tc main_arg7) = U (Proc.devRef .tc main_arg7) := by line_keeps
theorem inputLayer_keeps_main_v3 (U : Valuation τ sig (Elt Ideal)) :
    after (inputLayer (F := Ideal)) U (Proc.devRef .tc main_v3) = U (Proc.devRef .tc main_v3) := by line_keeps
theorem inputLayer_keeps_main_v6 (U : Valuation τ sig (Elt Ideal)) :
    after (inputLayer (F := Ideal)) U (Proc.devRef .tc main_v6) = U (Proc.devRef .tc main_v6) := by line_keeps
theorem inputLayer_keeps_main_v29 (U : Valuation τ sig (Elt Ideal)) :
    after (inputLayer (F := Ideal)) U (Proc.devRef .tc main_v29) = U (Proc.devRef .tc main_v29) := by line_keeps
theorem inputLayer_keeps_main_arg5 (U : Valuation τ sig (Elt Ideal)) :
    after (inputLayer (F := Ideal)) U (Proc.devRef .tc main_arg5) = U (Proc.devRef .tc main_arg5) := by line_keeps
theorem inputLayer_keeps_main_arg6 (U : Valuation τ sig (Elt Ideal)) :
    after (inputLayer (F := Ideal)) U (Proc.devRef .tc main_arg6) = U (Proc.devRef .tc main_arg6) := by line_keeps
theorem inputLayer_keeps_main_arg7 (U : Valuation τ sig (Elt Ideal)) :
    after (inputLayer (F := Ideal)) U (Proc.devRef .tc main_arg7) = U (Proc.devRef .tc main_arg7) := by line_keeps
theorem aggregate1_keeps_main_v3 (U : Valuation τ sig (Elt Ideal)) :
    after (aggregate1 (F := Ideal)) U (Proc.devRef .tc main_v3) = U (Proc.devRef .tc main_v3) := by line_keeps
theorem aggregate1_keeps_main_v6 (U : Valuation τ sig (Elt Ideal)) :
    after (aggregate1 (F := Ideal)) U (Proc.devRef .tc main_v6) = U (Proc.devRef .tc main_v6) := by line_keeps
theorem aggregate1_keeps_main_v29 (U : Valuation τ sig (Elt Ideal)) :
    after (aggregate1 (F := Ideal)) U (Proc.devRef .tc main_v29) = U (Proc.devRef .tc main_v29) := by line_keeps
theorem aggregate1_keeps_main_arg5 (U : Valuation τ sig (Elt Ideal)) :
    after (aggregate1 (F := Ideal)) U (Proc.devRef .tc main_arg5) = U (Proc.devRef .tc main_arg5) := by line_keeps
theorem aggregate1_keeps_main_arg6 (U : Valuation τ sig (Elt Ideal)) :
    after (aggregate1 (F := Ideal)) U (Proc.devRef .tc main_arg6) = U (Proc.devRef .tc main_arg6) := by line_keeps
theorem aggregate1_keeps_main_arg7 (U : Valuation τ sig (Elt Ideal)) :
    after (aggregate1 (F := Ideal)) U (Proc.devRef .tc main_arg7) = U (Proc.devRef .tc main_arg7) := by line_keeps
theorem between_keeps_main_v3 (U : Valuation τ sig (Elt Ideal)) :
    after (between (F := Ideal)) U (Proc.devRef .tc main_v3) = U (Proc.devRef .tc main_v3) := by line_keeps
theorem between_keeps_main_v6 (U : Valuation τ sig (Elt Ideal)) :
    after (between (F := Ideal)) U (Proc.devRef .tc main_v6) = U (Proc.devRef .tc main_v6) := by line_keeps
theorem between_keeps_main_v29 (U : Valuation τ sig (Elt Ideal)) :
    after (between (F := Ideal)) U (Proc.devRef .tc main_v29) = U (Proc.devRef .tc main_v29) := by line_keeps
theorem between_keeps_main_arg7 (U : Valuation τ sig (Elt Ideal)) :
    after (between (F := Ideal)) U (Proc.devRef .tc main_arg7) = U (Proc.devRef .tc main_arg7) := by line_keeps
theorem aggregate2_keeps_main_arg7 (U : Valuation τ sig (Elt Ideal)) :
    after (aggregate2 (F := Ideal)) U (Proc.devRef .tc main_arg7) = U (Proc.devRef .tc main_arg7) := by line_keeps

set_option maxRecDepth 8192 in
set_option maxHeartbeats 4000000 in
theorem ops_keeps_main_arg0 (U : Valuation τ sig (Elt Ideal)) :
    after (RunP.ops (F := Ideal)) U (Proc.devRef .tc main_arg0) = U (Proc.devRef .tc main_arg0) := by line_keeps
set_option maxRecDepth 8192 in
set_option maxHeartbeats 4000000 in
theorem ops_keeps_main_arg1 (U : Valuation τ sig (Elt Ideal)) :
    after (RunP.ops (F := Ideal)) U (Proc.devRef .tc main_arg1) = U (Proc.devRef .tc main_arg1) := by line_keeps
set_option maxRecDepth 8192 in
set_option maxHeartbeats 4000000 in
theorem ops_keeps_main_arg2 (U : Valuation τ sig (Elt Ideal)) :
    after (RunP.ops (F := Ideal)) U (Proc.devRef .tc main_arg2) = U (Proc.devRef .tc main_arg2) := by line_keeps
set_option maxRecDepth 8192 in
set_option maxHeartbeats 4000000 in
theorem ops_keeps_main_arg3 (U : Valuation τ sig (Elt Ideal)) :
    after (RunP.ops (F := Ideal)) U (Proc.devRef .tc main_arg3) = U (Proc.devRef .tc main_arg3) := by line_keeps
set_option maxRecDepth 8192 in
set_option maxHeartbeats 4000000 in
theorem ops_keeps_main_arg4 (U : Valuation τ sig (Elt Ideal)) :
    after (RunP.ops (F := Ideal)) U (Proc.devRef .tc main_arg4) = U (Proc.devRef .tc main_arg4) := by line_keeps
set_option maxRecDepth 8192 in
set_option maxHeartbeats 4000000 in
theorem ops_keeps_main_arg5 (U : Valuation τ sig (Elt Ideal)) :
    after (RunP.ops (F := Ideal)) U (Proc.devRef .tc main_arg5) = U (Proc.devRef .tc main_arg5) := by line_keeps
set_option maxRecDepth 8192 in
set_option maxHeartbeats 4000000 in
theorem ops_keeps_main_arg6 (U : Valuation τ sig (Elt Ideal)) :
    after (RunP.ops (F := Ideal)) U (Proc.devRef .tc main_arg6) = U (Proc.devRef .tc main_arg6) := by line_keeps
set_option maxRecDepth 8192 in
set_option maxHeartbeats 4000000 in
theorem ops_keeps_main_arg7 (U : Valuation τ sig (Elt Ideal)) :
    after (RunP.ops (F := Ideal)) U (Proc.devRef .tc main_arg7) = U (Proc.devRef .tc main_arg7) := by line_keeps

/-! ## The three stretches that are not graph code -/

variable (U : Valuation τ sig (Elt Ideal))

set_option maxHeartbeats 4000000 in
/-- After the input layer's stretch the first convolution's product buffer holds (x·w_in + b_in)·w_conv1. -/
theorem inputLayer_result :
    (after (inputLayer (F := Ideal)) U (Proc.devRef .tc main_v34) : FVec Ideal S50000x128 .f32)
      = (Host.dotGeneral (F := Ideal) (φ₁ := .f32) (φ₂ := .f32) dot_S50000x128_S128x128_S50000x128_1_0_0_1_n_n none
          (addf (Host.dotGeneral (F := Ideal) (φ₁ := .f32) (φ₂ := .f32) dot_S50000x64_S64x128_S50000x128_1_0_0_1_n_n none
              (U (Proc.devRef .tc main_arg0) : FVec Ideal S50000x64 .f32) (U (Proc.devRef .tc main_arg2) : FVec Ideal S64x128 .f32))
            (broadcastInDim S50000x128 ![0, 1] bcast_S1x128_S50000x128_0_1
              (broadcastInDim S1x128 ![1] bcast_S128_S1x128_1 (U (Proc.devRef .tc main_arg3) : FVec Ideal S128 .f32))))
          (U (Proc.devRef .tc main_arg4) : FVec Ideal S128x128 .f32) : FVec Ideal S50000x128 .f32) := by
  dsimp only [inputLayer]
  after_results_simp <;> rfl

set_option maxHeartbeats 4000000 in
/-- After the stretch between the aggregations the second convolution's product buffer holds
    max(agg + b_conv1, 0)·w_conv2. -/
theorem between_result :
    (after (between (F := Ideal)) U (Proc.devRef .tc main_v52) : FVec Ideal S50000x128 .f32)
      = (Host.dotGeneral (F := Ideal) (φ₁ := .f32) (φ₂ := .f32) dot_S50000x128_S128x128_S50000x128_1_0_0_1_n_n none
          (maximumf (addf (U (Proc.devRef .tc main_v47) : FVec Ideal S50000x128 .f32)
              (broadcastInDim S50000x128 ![0, 1] bcast_S1x128_S50000x128_0_1
                (broadcastInDim S1x128 ![1] bcast_S128_S1x128_1 (U (Proc.devRef .tc main_arg5) : FVec Ideal S128 .f32))))
            (broadcastInDim S50000x128 ![] bcast_S_S50000x128 (constant (F := Ideal) S_ .f32 0x00000000#32)))
          (U (Proc.devRef .tc main_arg6) : FVec Ideal S128x128 .f32) : FVec Ideal S50000x128 .f32) := by
  dsimp only [between]
  after_results_simp
  simp only [cast_cast_cancel]
  rfl

set_option maxHeartbeats 4000000 in
/-- After the last stretch the result buffer holds max(agg + b_conv2, 0). -/
theorem lastLayer_result :
    (after (lastLayer (F := Ideal)) U (Proc.devRef .tc main_v69) : FVec Ideal S50000x128 .f32)
      = (maximumf (addf (U (Proc.devRef .tc main_v65) : FVec Ideal S50000x128 .f32)
            (broadcastInDim S50000x128 ![0, 1] bcast_S1x128_S50000x128_0_1
              (broadcastInDim S1x128 ![1] bcast_S128_S1x128_1 (U (Proc.devRef .tc main_arg7) : FVec Ideal S128 .f32))))
          (broadcastInDim S50000x128 ![] bcast_S_S50000x128 (constant (F := Ideal) S_ .f32 0x00000000#32)) : FVec Ideal S50000x128 .f32) := by
  dsimp only [lastLayer]
  after_results_simp
  simp only [cast_cast_cancel]
  rfl

end Cert.ReferenceIdeal.Stretch

end
-- ==== Proof.Joint.lean ====
/-
  The two programs' results are one array.

  The kernel's boundary contents (W0 … W12) and the reference's contents after each of its six stretches (U0 … U6) are
  walked forward together from launch memories that agree on the eight arguments:

  * after the graph preamble the edge lists and the normalisation agree (same operations of the same edge list);
  * the kernel's input layer and first product, `affine128 (affine64 x w_in b_in) w_conv1 0`, is the reference's
    `dot_general` of `dot_general + bias` (a + 0 = a on the extended reals; a matrix-unit product into a zero
    accumulator and a host `dot_general` are the same sum);
  * the first aggregation agrees (same operations of arrays that agree);
  * the kernel's `shiftClamp` then `affine128 … 0` is the reference's bias, maximum with zero, `dot_general`;
  * the second aggregation agrees; the closing `shiftClamp` is the reference's bias and maximum with zero.
-/
import proofs.«124180_j8143257993843_1_alg».proof.Proof.KernelFold
import proofs.«124180_j8143257993843_1_alg».proof.Proof.GraphStretches
import proofs.«124180_j8143257993843_1_alg».proof.Proof.RefLayers
import proofs.«124180_j8143257993843_1_alg».proof.Proof.RefFold

noncomputable section

namespace Cert.Bridge

open Idealize.ShloMosaic Idealize.ShloMosaic.TcCoe Idealize.ShloMosaic.StableHlo Idealize.SL.Sem Idealize.ShloMosaic.ValueIdx

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The reference's contents at the launch and after each stretch. -/
abbrev U0 : RV := launchContents m' c
abbrev U1 : RV := after (Cert.ReferenceIdeal.Stretch.preamble (F := Ideal)) (U0 m' c)
abbrev U2 : RV := after (Cert.ReferenceIdeal.Stretch.inputLayer (F := Ideal)) (U1 m' c)
abbrev U3 : RV := after (Cert.ReferenceIdeal.Stretch.aggregate1 (F := Ideal)) (U2 m' c)
abbrev U4 : RV := after (Cert.ReferenceIdeal.Stretch.between (F := Ideal)) (U3 m' c)
abbrev U5 : RV := after (Cert.ReferenceIdeal.Stretch.aggregate2 (F := Ideal)) (U4 m' c)
abbrev U6 : RV := after (Cert.ReferenceIdeal.Stretch.lastLayer (F := Ideal)) (U5 m' c)

theorem U6_eq : after (Cert.ReferenceIdeal.RunP.ops (F := Ideal)) (U0 m' c) = U6 m' c := Cert.ReferenceIdeal.Stretch.fold_split (U0 m' c)

section
variable (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
include h0 h1 h2 h3 h4 h5 h6 h7

/-- After the preamble the two programs hold the same edge sources … -/
theorem src_agree : (Cert.KernelIdeal.Gen.W3 m ρ c (Proc.devRef .tc Cert.KernelIdeal.main_v3) : IVec Cert.KernelIdeal.S650000 32) = U1 m' c (Proc.devRef .tc Cert.ReferenceIdeal.main_v3) :=
  preamble_src (Cert.KernelIdeal.Gen.W0 m ρ c) (U0 m' c) h1.symm
/-- … the same edge destinations … -/
theorem dst_agree : (Cert.KernelIdeal.Gen.W3 m ρ c (Proc.devRef .tc Cert.KernelIdeal.main_v6) : IVec Cert.KernelIdeal.S650000 32) = U1 m' c (Proc.devRef .tc Cert.ReferenceIdeal.main_v6) :=
  preamble_dst (Cert.KernelIdeal.Gen.W0 m ρ c) (U0 m' c) h1.symm
/-- … and the same per-edge normalisation. -/
theorem norm_agree : (Cert.KernelIdeal.Gen.W3 m ρ c (Proc.devRef .tc Cert.KernelIdeal.main_v29) : FVec Ideal Cert.KernelIdeal.S650000 .f32) = U1 m' c (Proc.devRef .tc Cert.ReferenceIdeal.main_v29) :=
  preamble_norm (Cert.KernelIdeal.Gen.W0 m ρ c) (U0 m' c) h1.symm

/-- The dense arguments of the reference after its preamble, as the kernel's launch arguments. -/
theorem U1_arg0 : (U1 m' c (Proc.devRef .tc Cert.ReferenceIdeal.main_arg0) : FVec Ideal Cert.ReferenceIdeal.S50000x64 .f32) = m ((c.tc : Thread Cert.KernelIdeal.nD Cert.KernelIdeal.τ).loc Cert.KernelIdeal.main_arg0) :=
  (Cert.ReferenceIdeal.Stretch.preamble_keeps_main_arg0 (U0 m' c)).trans h0
theorem U1_arg2 : (U1 m' c (Proc.devRef .tc Cert.ReferenceIdeal.main_arg2) : FVec Ideal Cert.ReferenceIdeal.S64x128 .f32) = m ((c.tc : Thread Cert.KernelIdeal.nD Cert.KernelIdeal.τ).loc Cert.KernelIdeal.main_arg2) :=
  (Cert.ReferenceIdeal.Stretch.preamble_keeps_main_arg2 (U0 m' c)).trans h2
theorem U1_arg3 : (U1 m' c (Proc.devRef .tc Cert.ReferenceIdeal.main_arg3) : FVec Ideal Cert.ReferenceIdeal.S128 .f32) = m ((c.tc : Thread Cert.KernelIdeal.nD Cert.KernelIdeal.τ).loc Cert.KernelIdeal.main_arg3) :=
  (Cert.ReferenceIdeal.Stretch.preamble_keeps_main_arg3 (U0 m' c)).trans h3
theorem U1_arg4 : (U1 m' c (Proc.devRef .tc Cert.ReferenceIdeal.main_arg4) : FVec Ideal Cert.ReferenceIdeal.S128x128 .f32) = m ((c.tc : Thread Cert.KernelIdeal.nD Cert.KernelIdeal.τ).loc Cert.KernelIdeal.main_arg4) :=
  (Cert.ReferenceIdeal.Stretch.preamble_keeps_main_arg4 (U0 m' c)).trans h4

/-- The first convolution's product is the same array in both programs. -/
theorem product1_agree : (Cert.KernelIdeal.Gen.W6 m ρ c (Proc.devRef .tc Cert.KernelIdeal.main_v32) : FVec Ideal Cert.KernelIdeal.S50000x128 .f32) = U2 m' c (Proc.devRef .tc Cert.ReferenceIdeal.main_v34) := by
  refine (KFold.W6_main_v32 m ρ c).trans ?_
  refine (Ref.convProduct_eq _ _ _ (fun q => KFold.zeroRow1 (Cert.KernelIdeal.Gen.W4 m ρ c) q)).symm.trans ?_
  rw [← Ref.inputLayer_eq]
  refine Eq.trans ?_ (Cert.ReferenceIdeal.Stretch.inputLayer_result (U1 m' c)).symm
  rw [U1_arg0 m m' c h0 h1 h2 h3 h4 h5 h6 h7, U1_arg2 m m' c h0 h1 h2 h3 h4 h5 h6 h7, U1_arg3 m m' c h0 h1 h2 h3 h4 h5 h6 h7,
    U1_arg4 m m' c h0 h1 h2 h3 h4 h5 h6 h7]

/-- Argument k of the reference where the stretch that reads it starts, as the kernel's launch argument. -/
theorem U3_arg5 : (U3 m' c (Proc.devRef .tc Cert.ReferenceIdeal.main_arg5) : FVec Ideal Cert.ReferenceIdeal.S128 .f32) = m ((c.tc : Thread Cert.KernelIdeal.nD Cert.KernelIdeal.τ).loc Cert.KernelIdeal.main_arg5) :=
  (Cert.ReferenceIdeal.Stretch.aggregate1_keeps_main_arg5 (U2 m' c)).trans ((Cert.ReferenceIdeal.Stretch.inputLayer_keeps_main_arg5 (U1 m' c)).trans
    ((Cert.ReferenceIdeal.Stretch.preamble_keeps_main_arg5 (U0 m' c)).trans h5))
theorem U3_arg6 : (U3 m' c (Proc.devRef .tc Cert.ReferenceIdeal.main_arg6) : FVec Ideal Cert.ReferenceIdeal.S128x128 .f32) = m ((c.tc : Thread Cert.KernelIdeal.nD Cert.KernelIdeal.τ).loc Cert.KernelIdeal.main_arg6) :=
  (Cert.ReferenceIdeal.Stretch.aggregate1_keeps_main_arg6 (U2 m' c)).trans ((Cert.ReferenceIdeal.Stretch.inputLayer_keeps_main_arg6 (U1 m' c)).trans
    ((Cert.ReferenceIdeal.Stretch.preamble_keeps_main_arg6 (U0 m' c)).trans h6))
theorem U5_arg7 : (U5 m' c (Proc.devRef .tc Cert.ReferenceIdeal.main_arg7) : FVec Ideal Cert.ReferenceIdeal.S128 .f32) = m ((c.tc : Thread Cert.KernelIdeal.nD Cert.KernelIdeal.τ).loc Cert.KernelIdeal.main_arg7) :=
  (Cert.ReferenceIdeal.Stretch.aggregate2_keeps_main_arg7 (U4 m' c)).trans ((Cert.ReferenceIdeal.Stretch.between_keeps_main_arg7 (U3 m' c)).trans
    ((Cert.ReferenceIdeal.Stretch.aggregate1_keeps_main_arg7 (U2 m' c)).trans ((Cert.ReferenceIdeal.Stretch.inputLayer_keeps_main_arg7 (U1 m' c)).trans
      ((Cert.ReferenceIdeal.Stretch.preamble_keeps_main_arg7 (U0 m' c)).trans h7))))

/-- The first aggregation is the same array in both programs. -/
theorem aggregate1_agree : (Cert.KernelIdeal.Gen.W7 m ρ c (Proc.devRef .tc Cert.KernelIdeal.main_v45) : FVec Ideal Cert.KernelIdeal.S50000x128 .f32) = U3 m' c (Proc.devRef .tc Cert.ReferenceIdeal.main_v47) :=
  aggregate1_sim (Cert.KernelIdeal.Gen.W6 m ρ c) (U2 m' c)
    (product1_agree m ρ m' c h0 h1 h2 h3 h4 h5 h6 h7)
    ((KFold.W6_main_v3 m ρ c).trans ((src_agree m ρ m' c h0 h1 h2 h3 h4 h5 h6 h7).trans (Cert.ReferenceIdeal.Stretch.inputLayer_keeps_main_v3 (U1 m' c)).symm))
    ((KFold.W6_main_v6 m ρ c).trans ((dst_agree m ρ m' c h0 h1 h2 h3 h4 h5 h6 h7).trans (Cert.ReferenceIdeal.Stretch.inputLayer_keeps_main_v6 (U1 m' c)).symm))
    ((KFold.W6_main_v29 m ρ c).trans ((norm_agree m ρ m' c h0 h1 h2 h3 h4 h5 h6 h7).trans (Cert.ReferenceIdeal.Stretch.inputLayer_keeps_main_v29 (U1 m' c)).symm))

/-- The second convolution's product is the same array in both programs. -/
theorem product2_agree : (Cert.KernelIdeal.Gen.W10 m ρ c (Proc.devRef .tc Cert.KernelIdeal.main_v48) : FVec Ideal Cert.KernelIdeal.S50000x128 .f32) = U4 m' c (Proc.devRef .tc Cert.ReferenceIdeal.main_v52) := by
  refine (KFold.W10_main_v48 m ρ c).trans ?_
  refine (Ref.convProduct_eq _ _ _ (fun q => KFold.zeroRow3 (Cert.KernelIdeal.Gen.W8 m ρ c) q)).symm.trans ?_
  rw [KFold.W8_main_v46 m ρ c, aggregate1_agree m ρ m' c h0 h1 h2 h3 h4 h5 h6 h7, ← Ref.closing_eq]
  refine Eq.trans ?_ (Cert.ReferenceIdeal.Stretch.between_result (U3 m' c)).symm
  rw [U3_arg5 m m' c h0 h1 h2 h3 h4 h5 h6 h7, U3_arg6 m m' c h0 h1 h2 h3 h4 h5 h6 h7]

/-- The second aggregation is the same array in both programs. -/
theorem aggregate2_agree : (Cert.KernelIdeal.Gen.W11 m ρ c (Proc.devRef .tc Cert.KernelIdeal.main_v61) : FVec Ideal Cert.KernelIdeal.S50000x128 .f32) = U5 m' c (Proc.devRef .tc Cert.ReferenceIdeal.main_v65) :=
  aggregate2_sim (Cert.KernelIdeal.Gen.W10 m ρ c) (U4 m' c)
    (product2_agree m ρ m' c h0 h1 h2 h3 h4 h5 h6 h7)
    ((KFold.W10_main_v3 m ρ c).trans ((src_agree m ρ m' c h0 h1 h2 h3 h4 h5 h6 h7).trans
      ((Cert.ReferenceIdeal.Stretch.between_keeps_main_v3 (U3 m' c)).trans ((Cert.ReferenceIdeal.Stretch.aggregate1_keeps_main_v3 (U2 m' c)).trans (Cert.ReferenceIdeal.Stretch.inputLayer_keeps_main_v3 (U1 m' c)))).symm))
    ((KFold.W10_main_v6 m ρ c).trans ((dst_agree m ρ m' c h0 h1 h2 h3 h4 h5 h6 h7).trans
      ((Cert.ReferenceIdeal.Stretch.between_keeps_main_v6 (U3 m' c)).trans ((Cert.ReferenceIdeal.Stretch.aggregate1_keeps_main_v6 (U2 m' c)).trans (Cert.ReferenceIdeal.Stretch.inputLayer_keeps_main_v6 (U1 m' c)))).symm))
    ((KFold.W10_main_v29 m ρ c).trans ((norm_agree m ρ m' c h0 h1 h2 h3 h4 h5 h6 h7).trans
      ((Cert.ReferenceIdeal.Stretch.between_keeps_main_v29 (U3 m' c)).trans ((Cert.ReferenceIdeal.Stretch.aggregate1_keeps_main_v29 (U2 m' c)).trans (Cert.ReferenceIdeal.Stretch.inputLayer_keeps_main_v29 (U1 m' c)))).symm))

/-- The two programs' results are one array. -/
theorem result_agree : (Cert.KernelIdeal.Gen.W12 m ρ c (Proc.devRef .tc Cert.KernelIdeal.main_v62) : FVec Ideal Cert.KernelIdeal.S50000x128 .f32)
    = after (Cert.ReferenceIdeal.RunP.ops (F := Ideal)) (launchContents m' c) (Proc.devRef .tc Cert.ReferenceIdeal.main_v69) := by
  rw [show after (Cert.ReferenceIdeal.RunP.ops (F := Ideal)) (launchContents m' c) = U6 m' c from U6_eq m' c]
  refine (KFold.W12_main_v62 m ρ c).trans ?_
  rw [aggregate2_agree m ρ m' c h0 h1 h2 h3 h4 h5 h6 h7, ← Ref.closing_eq]
  refine Eq.trans ?_ (Cert.ReferenceIdeal.Stretch.lastLayer_result (U5 m' c)).symm
  rw [U5_arg7 m m' c h0 h1 h2 h3 h4 h5 h6 h7]

end

end Cert.Bridge

end
-- ==== Proof.lean ====
/-
  A two-layer graph-convolution network on 50000 nodes and 600000 edges, tiled against its plain reference.

  Both programs append a self-loop per node to the edge list, count in-degrees, take their inverse square roots where
  positive, and weight every edge by the product of its end-points' factors — the same host operations in both.  The
  network is  h0 = x·w_in + b_in,  then twice  h ↦ max(A(h·w) + b, 0),  where A gathers the rows of the edge sources,
  scales them by the edge weights and adds them into the rows of the edge destinations.

  The kernel computes each dense step in blocks of 5000 rows on the tensor core: x·w_in + b_in; h·w + 0 (the convolutions'
  linear parts are given a zero bias row); and max(a + b, 0).  The reference computes the same steps on the host with
  whole-array `dot_general`s.  Over the extended reals a change of float format is the identity, a matrix-unit product
  into a zero accumulator and a `dot_general` are the same finite sum of products, a + 0 = a for every extended real,
  and a row of any of these steps depends only on the same row of its operand — so the ten blocks of a call are the
  whole-array step, and the two programs are the same composition.  No law used needs the inputs finite.

  The three frames: the kernel's two are generated; the reference's is its run (every buffer ends at the fold of its
  operations over the launch contents) read at the arguments, which no operation writes.  The idealization rewrote no
  operation, so `preserves` is trivial.
-/
import proofs.«124180_j8143257993843_1_alg».proof.Defs
import proofs.«124180_j8143257993843_1_alg».proof.Proof.Gen.Kernel
import proofs.«124180_j8143257993843_1_alg».proof.Proof.Gen.Kernel.Frame
import proofs.«124180_j8143257993843_1_alg».proof.Proof.Gen.KernelIdeal
import proofs.«124180_j8143257993843_1_alg».proof.Proof.Gen.KernelIdeal.Frame
import proofs.«124180_j8143257993843_1_alg».proof.Proof.Gen.ReferenceIdeal
import proofs.«124180_j8143257993843_1_alg».proof.Proof.Gen.Pre_finite_inputs
import proofs.«124180_j8143257993843_1_alg».proof.Proof.KernelRun
import proofs.«124180_j8143257993843_1_alg».proof.Proof.Joint
import proofs.«124180_j8143257993843_1_alg».proof.Proof.RefOps
import proofs.«124180_j8143257993843_1_alg».proof.Proof.RefFold
import Idealize.ShloMosaic.Adequacy
import Idealize.ShloMosaic.Init

noncomputable section

namespace Cert.Proof

open Idealize.ShloMosaic Idealize.ShloMosaic.TcCoe Idealize.ShloMosaic.StableHlo Idealize.SL.Sem

/-- The word-level kernel runs and leaves its arguments alone: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs, and no operation of its line writes an argument. -/
theorem frame_reference : Cert.frame_ReferenceIdeal := fun m ρ _ =>
  (θ_run Cert.ReferenceIdeal.defs _ _).mono (fun r h c =>
    ⟨(h c Cert.ReferenceIdeal.main_arg0).trans (Cert.ReferenceIdeal.Stretch.ops_keeps_main_arg0 (launchContents m c)),
     (h c Cert.ReferenceIdeal.main_arg1).trans (Cert.ReferenceIdeal.Stretch.ops_keeps_main_arg1 (launchContents m c)),
     (h c Cert.ReferenceIdeal.main_arg2).trans (Cert.ReferenceIdeal.Stretch.ops_keeps_main_arg2 (launchContents m c)),
     (h c Cert.ReferenceIdeal.main_arg3).trans (Cert.ReferenceIdeal.Stretch.ops_keeps_main_arg3 (launchContents m c)),
     (h c Cert.ReferenceIdeal.main_arg4).trans (Cert.ReferenceIdeal.Stretch.ops_keeps_main_arg4 (launchContents m c)),
     (h c Cert.ReferenceIdeal.main_arg5).trans (Cert.ReferenceIdeal.Stretch.ops_keeps_main_arg5 (launchContents m c)),
     (h c Cert.ReferenceIdeal.main_arg6).trans (Cert.ReferenceIdeal.Stretch.ops_keeps_main_arg6 (launchContents m c)),
     (h c Cert.ReferenceIdeal.main_arg7).trans (Cert.ReferenceIdeal.Stretch.ops_keeps_main_arg7 (launchContents m c))⟩)
    (Cert.ReferenceIdeal.RunP.run_fold (F := Ideal) m ρ)

/-- From memories agreeing on the arguments both idealized programs run, end with the same result array — the kernel's
    last boundary contents at its result buffer — and leave their arguments alone. -/
theorem algebraic : Cert.algebraic_KernelIdeal_ReferenceIdeal := by
  intro m ρ m' ρ' _ hagree
  refine ⟨fun c => Cert.KernelIdeal.Gen.W12 m ρ c (Proc.devRef .tc Cert.KernelIdeal.main_v62), Cert.Bridge.KRun.run_result (F := Ideal) m ρ, ?_⟩
  refine (θ_run Cert.ReferenceIdeal.defs _ _).mono (fun r h c => ?_) (Cert.ReferenceIdeal.RunP.run_fold (F := Ideal) m' ρ')
  obtain ⟨h0, h1, h2, h3, h4, h5, h6, h7⟩ := hagree c
  exact ⟨(h c Cert.ReferenceIdeal.main_v69).trans (Cert.Bridge.result_agree m ρ m' c h0 h1 h2 h3 h4 h5 h6 h7).symm,
     (h c Cert.ReferenceIdeal.main_arg0).trans (Cert.ReferenceIdeal.Stretch.ops_keeps_main_arg0 (launchContents m' c)),
     (h c Cert.ReferenceIdeal.main_arg1).trans (Cert.ReferenceIdeal.Stretch.ops_keeps_main_arg1 (launchContents m' c)),
     (h c Cert.ReferenceIdeal.main_arg2).trans (Cert.ReferenceIdeal.Stretch.ops_keeps_main_arg2 (launchContents m' c)),
     (h c Cert.ReferenceIdeal.main_arg3).trans (Cert.ReferenceIdeal.Stretch.ops_keeps_main_arg3 (launchContents m' c)),
     (h c Cert.ReferenceIdeal.main_arg4).trans (Cert.ReferenceIdeal.Stretch.ops_keeps_main_arg4 (launchContents m' c)),
     (h c Cert.ReferenceIdeal.main_arg5).trans (Cert.ReferenceIdeal.Stretch.ops_keeps_main_arg5 (launchContents m' c)),
     (h c Cert.ReferenceIdeal.main_arg6).trans (Cert.ReferenceIdeal.Stretch.ops_keeps_main_arg6 (launchContents m' c)),
     (h c Cert.ReferenceIdeal.main_arg7).trans (Cert.ReferenceIdeal.Stretch.ops_keeps_main_arg7 (launchContents m' c))⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
